-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1000000 : Shape := ⟨2, ![2, 1000000]⟩
abbrev S1x32 : Shape := ⟨2, ![1, 32]⟩
abbrev S32 : Shape := ⟨1, ![32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x1 .f32) (main_arg1 : IVec S2x1000000 32) (main_arg2 : FVec F S1x32 .f32) (main_arg3 : FVec F S32 .f32) (main_arg4 : FVec F S32x64 .f32) (main_arg5 : FVec F S64 .f32) (main_arg6 : FVec F S64x1 .f32) (main_arg7 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x32 .f32 := Host.absf main_arg2
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_v13 main_v16
-- ==== Kernel.lean ====
abbrev S100000x1 : Shape := ⟨2, ![100000, 1]⟩
abbrev S2x1000000 : Shape := ⟨2, ![2, 1000000]⟩
abbrev S1x32 : Shape := ⟨2, ![1, 32]⟩
abbrev S32 : Shape := ⟨1, ![32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x32 : Shape := ⟨2, ![100000, 32]⟩
abbrev S10000x1 : Shape := ⟨2, ![10000, 1]⟩
abbrev S10000x32 : Shape := ⟨2, ![10000, 32]⟩
abbrev S1100000x32 : Shape := ⟨2, ![1100000, 32]⟩
abbrev S100000x64 : Shape := ⟨2, ![100000, 64]⟩
abbrev S10000x64 : Shape := ⟨2, ![10000, 64]⟩
abbrev S1100000x64 : Shape := ⟨2, ![1100000, 64]⟩
abbrev S1x64 : Shape := ⟨2, ![1, 64]⟩
abbrev S1x1 : Shape := ⟨2, ![1, 1]⟩

abbrev nBuf : Space → Nat
  | .hbm => 89
  | .vmem => 18
  | .smem => 0
  | _ => 0

abbrev bufTy : (tb : Table) → Fin (tcTables nBuf tb) → BufTy
  | .hbm, ⟨0, _⟩ => ⟨S100000x1, .f32⟩
  | .hbm, ⟨1, _⟩ => ⟨S2x1000000, .i32⟩
  | .hbm, ⟨2, _⟩ => ⟨S1x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S100000, .i32⟩
  | .hbm, ⟨13, _⟩ => ⟨S1100000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1100000, .i32⟩
  | .hbm, ⟨34, _⟩ => ⟨S1100000, .i1⟩
  | .hbm, ⟨35, _⟩ => ⟨S_, .i32⟩
  | .hbm, ⟨36, _⟩ => ⟨S1100000, .i32⟩
  | .hbm, ⟨37, _⟩ => ⟨S1100000, .i32⟩
  | .hbm, ⟨38, _⟩ => ⟨S1100000, .i32⟩
  | .hbm, ⟨39, _⟩ => ⟨S1100000x1, .i32⟩
  | .hbm, ⟨40, _⟩ => ⟨S1100000, .f32⟩
  | .hbm, ⟨41, _⟩ => ⟨S_, .i32⟩
  | .hbm, ⟨42, _⟩ => ⟨S1100000, .i32⟩
  | .hbm, ⟨43, _⟩ => ⟨S1100000, .i1⟩
  | .hbm, ⟨44, _⟩ => ⟨S_, .i32⟩
  | .hbm, ⟨45, _⟩ => ⟨S1100000, .i32⟩
  | .hbm, ⟨46, _⟩ => ⟨S1100000, .i32⟩
  | .hbm, ⟨47, _⟩ => ⟨S1100000, .i32⟩
  | .hbm, ⟨48, _⟩ => ⟨S1100000x1, .i32⟩
  | .hbm, ⟨49, _⟩ => ⟨S1100000, .f32⟩
  | .hbm, ⟨50, _⟩ => ⟨S1100000, .f32⟩
  | .hbm, ⟨51, _⟩ => ⟨S100000x32, .f32⟩
  | .hbm, ⟨52, _⟩ => ⟨S_, .i32⟩
  | .hbm, ⟨53, _⟩ => ⟨S1100000, .i32⟩
  | .hbm, ⟨54, _⟩ => ⟨S1100000, .i1⟩
  | .hbm, ⟨55, _⟩ => ⟨S_, .i32⟩
  | .hbm, ⟨56, _⟩ => ⟨S1100000, .i32⟩
  | .hbm, ⟨57, _⟩ => ⟨S1100000, .i32⟩
  | .hbm, ⟨58, _⟩ => ⟨S1100000, .i32⟩
  | .hbm, ⟨59, _⟩ => ⟨S1100000x1, .i32⟩
  | .hbm, ⟨60, _⟩ => ⟨S1100000x32, .f32⟩
  | .hbm, ⟨61, _⟩ => ⟨S1100000x1, .f32⟩
  | .hbm, ⟨62, _⟩ => ⟨S1100000x32, .f32⟩
  | .hbm, ⟨63, _⟩ => ⟨S1100000x32, .f32⟩
  | .hbm, ⟨64, _⟩ => ⟨S_, .f32⟩
  | .hbm, ⟨65, _⟩ => ⟨S100000x32, .f32⟩
  | .hbm, ⟨66, _⟩ => ⟨S1100000x1, .i32⟩
  | .hbm, ⟨67, _⟩ => ⟨S100000x32, .f32⟩
  | .hbm, ⟨68, _⟩ => ⟨S1x32, .f32⟩
  | .hbm, ⟨69, _⟩ => ⟨S100000x64, .f32⟩
  | .hbm, ⟨70, _⟩ => ⟨S_, .i32⟩
  | .hbm, ⟨71, _⟩ => ⟨S1100000, .i32⟩
  | .hbm, ⟨72, _⟩ => ⟨S1100000, .i1⟩
  | .hbm, ⟨73, _⟩ => ⟨S_, .i32⟩
  | .hbm, ⟨74, _⟩ => ⟨S1100000, .i32⟩
  | .hbm, ⟨75, _⟩ => ⟨S1100000, .i32⟩
  | .hbm, ⟨76, _⟩ => ⟨S1100000, .i32⟩
  | .hbm, ⟨77, _⟩ => ⟨S1100000x1, .i32⟩
  | .hbm, ⟨78, _⟩ => ⟨S1100000x64, .f32⟩
  | .hbm, ⟨79, _⟩ => ⟨S1100000x1, .f32⟩
  | .hbm, ⟨80, _⟩ => ⟨S1100000x64, .f32⟩
  | .hbm, ⟨81, _⟩ => ⟨S1100000x64, .f32⟩
  | .hbm, ⟨82, _⟩ => ⟨S_, .f32⟩
  | .hbm, ⟨83, _⟩ => ⟨S100000x64, .f32⟩
  | .hbm, ⟨84, _⟩ => ⟨S1100000x1, .i32⟩
  | .hbm, ⟨85, _⟩ => ⟨S100000x64, .f32⟩
  | .hbm, ⟨86, _⟩ => ⟨S1x64, .f32⟩
  | .hbm, ⟨87, _⟩ => ⟨S1x1, .f32⟩
  | .hbm, ⟨88, _⟩ => ⟨S100000x1, .f32⟩
  | .local _ .vmem, ⟨0, _⟩ => ⟨S10000x1, .f32⟩
  | .local _ .vmem, ⟨1, _⟩ => ⟨S10000x1, .f32⟩
  | .local _ .vmem, ⟨2, _⟩ => ⟨S1x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S10000x1, .f32⟩
  | .local _ .vmem, ⟨17, _⟩ => ⟨S10000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S1100000x1_S1100000x32_0_1 : S1100000x1.BroadcastsInDim S1100000x32 (![0, 1] : Fin 2 → Fin S1100000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S1_S1x1 : S1.ShapeCasts S1x1
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x32_S1100000x1_S1100000x32_1_0_n_n_0_1_132_wf : GatherDims.WF S100000x32 S1100000x1 S1100000x32 [1] [0] [] [0] [] 1 ![1, 32]
  scatter_S100000x32_S1100000x1_S1100000x32_1_0_0_1_wf : ScatterDims.WF S100000x32 S1100000x1 S1100000x32 [1] [0] [0] 1
  dot_S10000x32_S32x64_S10000x64_1_0_0_1_n_n_wf : DotDims.WF S10000x32 S32x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x1.size a ≤ S100000x1.size a
  hwx2_4 : ∀ i : grid2.Coords, EltTy.bits .f32 = 32 ∨ (Rect.block (s := S100000x1) S10000x1.size (cc2_transform_4 i) (hinb2_4 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x32_S1100000x1_S1100000x32_1_0_n_n_0_1_132 : GatherDims S100000x32 S1100000x1 S1100000x32 where
  offsetDims := [1]
  collapsedSliceDims := [0]
  operandBatchingDims := []
  startIndicesBatchingDims := []
  startIndexMap := [0]
  indexVectorDim := 1
  sliceSizes := ![1, 32]
  wf := gather_S100000x32_S1100000x1_S1100000x32_1_0_n_n_0_1_132_wf
def scatter_S100000x32_S1100000x1_S1100000x32_1_0_0_1 : ScatterDims S100000x32 S1100000x1 S1100000x32 where
  updateWindowDims := [1]
  insertedWindowDims := [0]
  scatterDimsToOperandDims := [0]
  indexVectorDim := 1
  wf := scatter_S100000x32_S1100000x1_S1100000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S10000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x1 : Shape := ⟨2, ![100000, 1]⟩
abbrev S2x1000000 : Shape := ⟨2, ![2, 1000000]⟩
abbrev S1x32 : Shape := ⟨2, ![1, 32]⟩
abbrev S32 : Shape := ⟨1, ![32]⟩
abbrev S32x64 : Shape := ⟨2, ![32, 64]⟩
abbrev S64 : Shape := ⟨1, ![64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S100000x32 : Shape := ⟨2, ![100000, 32]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x32 : Shape := ⟨2, ![1100000, 32]⟩
abbrev S100000x64 : Shape := ⟨2, ![100000, 64]⟩
abbrev S1100000x64 : Shape := ⟨2, ![1100000, 64]⟩
abbrev S1x64 : Shape := ⟨2, ![1, 64]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S100000x1, .f32⟩
  | 1 => ⟨S2x1000000, .i32⟩
  | 2 => ⟨S1x32, .f32⟩
  | 3 => ⟨S32, .f32⟩
  | 4 => ⟨S32x64, .f32⟩
  | 5 => ⟨S64, .f32⟩
  | 6 => ⟨S64x1, .f32⟩
  | 7 => ⟨S1, .f32⟩
  | 8 => ⟨S1x1000000, .i32⟩
  | 9 => ⟨S1000000, .i32⟩
  | 10 => ⟨S1x1000000, .i32⟩
  | 11 => ⟨S1000000, .i32⟩
  | 12 => ⟨S100000x32, .f32⟩
  | 13 => ⟨S100000, .i32⟩
  | 14 => ⟨S1100000, .i32⟩
  | 15 => ⟨S1100000, .i32⟩
  | 16 => ⟨S_, .f32⟩
  | 17 => ⟨S1100000, .f32⟩
  | 18 => ⟨S_, .f32⟩
  | 19 => ⟨S100000, .f32⟩
  | 20 => ⟨S1100000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1100000, .i32⟩
  | 35 => ⟨S1100000, .i1⟩
  | 36 => ⟨S_, .i32⟩
  | 37 => ⟨S1100000, .i32⟩
  | 38 => ⟨S1100000, .i32⟩
  | 39 => ⟨S1100000, .i32⟩
  | 40 => ⟨S1100000x1, .i32⟩
  | 41 => ⟨S1100000, .f32⟩
  | 42 => ⟨S_, .i32⟩
  | 43 => ⟨S1100000, .i32⟩
  | 44 => ⟨S1100000, .i1⟩
  | 45 => ⟨S_, .i32⟩
  | 46 => ⟨S1100000, .i32⟩
  | 47 => ⟨S1100000, .i32⟩
  | 48 => ⟨S1100000, .i32⟩
  | 49 => ⟨S1100000x1, .i32⟩
  | 50 => ⟨S1100000, .f32⟩
  | 51 => ⟨S1100000, .f32⟩
  | 52 => ⟨S_, .i32⟩
  | 53 => ⟨S1100000, .i32⟩
  | 54 => ⟨S1100000, .i1⟩
  | 55 => ⟨S_, .i32⟩
  | 56 => ⟨S1100000, .i32⟩
  | 57 => ⟨S1100000, .i32⟩
  | 58 => ⟨S1100000, .i32⟩
  | 59 => ⟨S1100000x1, .i32⟩
  | 60 => ⟨S1100000x32, .f32⟩
  | 61 => ⟨S1100000x1, .f32⟩
  | 62 => ⟨S1100000x32, .f32⟩
  | 63 => ⟨S1100000x32, .f32⟩
  | 64 => ⟨S_, .f32⟩
  | 65 => ⟨S100000x32, .f32⟩
  | 66 => ⟨S1100000x1, .i32⟩
  | 67 => ⟨S100000x32, .f32⟩
  | 68 => ⟨S1x32, .f32⟩
  | 69 => ⟨S100000x32, .f32⟩
  | 70 => ⟨S100000x32, .f32⟩
  | 71 => ⟨S_, .f32⟩
  | 72 => ⟨S100000x32, .f32⟩
  | 73 => ⟨S100000x32, .f32⟩
  | 74 => ⟨S100000x64, .f32⟩
  | 75 => ⟨S100000, .i32⟩
  | 76 => ⟨S1100000, .i32⟩
  | 77 => ⟨S1100000, .i32⟩
  | 78 => ⟨S_, .f32⟩
  | 79 => ⟨S1100000, .f32⟩
  | 80 => ⟨S_, .f32⟩
  | 81 => ⟨S100000, .f32⟩
  | 82 => ⟨S1100000x1, .i32⟩
  | 83 => ⟨S100000, .f32⟩
  | 84 => ⟨S_, .f32⟩
  | 85 => ⟨S100000, .f32⟩
  | 86 => ⟨S100000, .i1⟩
  | 87 => ⟨S_, .f32⟩
  | 88 => ⟨S100000, .f32⟩
  | 89 => ⟨S100000, .f32⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S1100000, .i32⟩
  | 97 => ⟨S1100000, .i1⟩
  | 98 => ⟨S_, .i32⟩
  | 99 => ⟨S1100000, .i32⟩
  | 100 => ⟨S1100000, .i32⟩
  | 101 => ⟨S1100000, .i32⟩
  | 102 => ⟨S1100000x1, .i32⟩
  | 103 => ⟨S1100000, .f32⟩
  | 104 => ⟨S_, .i32⟩
  | 105 => ⟨S1100000, .i32⟩
  | 106 => ⟨S1100000, .i1⟩
  | 107 => ⟨S_, .i32⟩
  | 108 => ⟨S1100000, .i32⟩
  | 109 => ⟨S1100000, .i32⟩
  | 110 => ⟨S1100000, .i32⟩
  | 111 => ⟨S1100000x1, .i32⟩
  | 112 => ⟨S1100000, .f32⟩
  | 113 => ⟨S1100000, .f32⟩
  | 114 => ⟨S_, .i32⟩
  | 115 => ⟨S1100000, .i32⟩
  | 116 => ⟨S1100000, .i1⟩
  | 117 => ⟨S_, .i32⟩
  | 118 => ⟨S1100000, .i32⟩
  | 119 => ⟨S1100000, .i32⟩
  | 120 => ⟨S1100000, .i32⟩
  | 121 => ⟨S1100000x1, .i32⟩
  | 122 => ⟨S1100000x64, .f32⟩
  | 123 => ⟨S1100000x1, .f32⟩
  | 124 => ⟨S1100000x64, .f32⟩
  | 125 => ⟨S1100000x64, .f32⟩
  | 126 => ⟨S_, .f32⟩
  | 127 => ⟨S100000x64, .f32⟩
  | _ => ⟨S100000x1, .f32⟩

abbrev hbmTy0_1 (i : Nat) : BufTy := match i % 128 with
  | 0 => ⟨S1100000x1, .i32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S100000x1, .f32⟩
  | 9 => ⟨S1x1, .f32⟩
  | 10 => ⟨S100000x1, .f32⟩
  | 11 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_10 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_call2_v0 : Ref sig .tc := ⟨.hbm, 92, rfl⟩
abbrev main_call2_v1 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_17 : Ref sig .tc := ⟨.hbm, 104, rfl⟩
abbrev main_v71 : Ref sig .tc := ⟨.hbm, 105, rfl⟩
abbrev main_v72 : Ref sig .tc := ⟨.hbm, 106, rfl⟩
abbrev main_c_18 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_19 : Ref sig .tc := ⟨.hbm, 114, rfl⟩
abbrev main_v79 : Ref sig .tc := ⟨.hbm, 115, rfl⟩
abbrev main_v80 : Ref sig .tc := ⟨.hbm, 116, rfl⟩
abbrev main_c_20 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_21 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x32_0_1 : S1100000x1.BroadcastsInDim S1100000x32 (![0, 1] : Fin 2 → Fin S1100000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x1_S1x32_S100000x32_1_0_0_1_n_n_wf : DotDims.WF S100000x1 S1x32 S100000x32 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x32_S1100000x1_S1100000x32_1_0_n_n_0_1_132_wf : GatherDims.WF S100000x32 S1100000x1 S1100000x32 [1] [0] [] [0] [] 1 ![1, 32]
  scatter_S100000x32_S1100000x1_S1100000x32_1_0_0_1_wf : ScatterDims.WF S100000x32 S1100000x1 S1100000x32 [1] [0] [0] 1
  dot_S100000x32_S32x64_S100000x64_1_0_0_1_n_n_wf : DotDims.WF S100000x32 S32x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x1_S100000x1_1_0_0_1_n_n_wf : DotDims.WF S100000x64 S64x1 S100000x1 [1] [0] [0] [1] [] []

variable [Facts₀]

def dot_S100000x1_S1x32_S100000x32_1_0_0_1_n_n : DotDims S100000x1 S1x32 S100000x32 where
  lhsContracting := [1]
  rhsContracting := [0]
  lhsNonContracting := [0]
  rhsNonContracting := [1]
  lhsBatch := []
  rhsBatch := []
  wf := dot_S100000x1_S1x32_S100000x32_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x32_S1100000x1_S1100000x32_1_0_n_n_0_1_132 : GatherDims S100000x32 S1100000x1 S1100000x32 where
  offsetDims := [1]
  collapsedSliceDims := [0]
  operandBatchingDims := []
  startIndicesBatchingDims := []
  startIndexMap := [0]
  indexVectorDim := 1
  sliceSizes := ![1, 32]
  wf := gather_S100000x32_S1100000x1_S1100000x32_1_0_n_n_0_1_132_wf
def scatter_S100000x32_S1100000x1_S1100000x32_1_0_0_1 : ScatterDims S100000x32 S1100000x1 S1100000x32 where
  updateWindowDims := [1]
  insertedWindowDims := [0]
  scatterDimsToOperandDims := [0]
  indexVectorDim := 1
  wf := scatter_S100000x32_S1100000x1_S1100000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel program's run with its result named.

  The program is eight segments: three straight lines of host operations, a device region, a line, a region, a line, a
  region. Every weakly fair execution runs them in order; at the end every live buffer holds the contents at the last
  segment boundary, so the result buffer holds what the last region's write-backs left and the arguments are as launched.
-/
import proofs.«173035_j7576322310702_2_alg».proof.Proof.Gen.KernelIdeal.Frame

set_option maxRecDepth 16384

noncomputable section

namespace Cert.GcnK.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments as
    launched. -/
theorem run_last : θ_run defs (onTc (τ := τ) (main (F := F))) ⟨m, fun _ => 0, ρ⟩ (fun r => ∀ c : Dev nD,
      r.2.mem ((c.tc : Thread nD τ).loc main_v63) = W8 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v63 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.GcnK.Run

end
-- ==== Proof.Glue.lean ====
/-
  The graph side of the network, as functions of the edge list.

  The edge list is a [2, E] table of node numbers; row 0 holds each edge's source, row 1 its target, and every node gets a
  self loop appended, so both endpoint vectors have E + N entries. A node's degree is the number of entries of the target
  vector equal to it (a sum of ones scattered to the targets); its weight is 1/sqrt(degree) where the degree is positive
  and 0 elsewhere; an edge's coefficient is the product of its two endpoints' weights. One propagation step takes a table
  of node features, gathers the source row of every edge, scales it by the edge's coefficient and adds it into the target
  node's row. A negative node number is read from the end of the table, as the array indexing it came from does.
  Everything here is stated for any float model; nothing is evaluated.
-/
import proofs.«173035_j7576322310702_2_alg».proof.KernelIdeal
import proofs.«173035_j7576322310702_2_alg».proof.Proof.Gen.KernelIdeal

noncomputable section

namespace Cert.GcnK

open Idealize.ShloMosaic Cert.KernelIdeal Cert.KernelIdeal.Facts₀

variable {F : FTy → Type} [FloatOps F]

/-- Row `r` of the edge list with the self loops appended: the endpoints of all E + N edges. -/
def endpoints0 (ei : (⟨S2x1000000, .i32⟩ : BufTy).Contents (Elt F)) : (⟨S1100000, .i32⟩ : BufTy).Contents (Elt F) :=
  concatenate S1100000 0 [⟨S1000000, shapeCast _ (extractStridedSlice S1x1000000 ![0, 0] ei slices_S2x1000000_S1x1000000_0_0) shapeCasts_S1x1000000_S1000000⟩, ⟨S100000, iotaInDim S100000 32 0⟩] concatenates_S1000000_S100000_S1100000_d0

/-- The targets of all E + N edges. -/
def endpoints1 (ei : (⟨S2x1000000, .i32⟩ : BufTy).Contents (Elt F)) : (⟨S1100000, .i32⟩ : BufTy).Contents (Elt F) :=
  concatenate S1100000 0 [⟨S1000000, shapeCast _ (extractStridedSlice S1x1000000 ![1, 0] ei slices_S2x1000000_S1x1000000_1_0) shapeCasts_S1x1000000_S1000000⟩, ⟨S100000, iotaInDim S100000 32 0⟩] concatenates_S1000000_S100000_S1100000_d0

/-- Node numbers as one-entry start positions of a row gather, a negative number counted from the end. -/
def startRows (v : (⟨S1100000, .i32⟩ : BufTy).Contents (Elt F)) : (⟨S1100000x1, .i32⟩ : BufTy).Contents (Elt F) :=
  broadcastInDim S1100000x1 ![0] bcast_S1100000_S1100000x1_0
    (select (cmpi .slt v (broadcastInDim S1100000 ![] bcast_S_S1100000 (constantI S_ 32 0#32)))
      (addi v (broadcastInDim S1100000 ![] bcast_S_S1100000 (constantI S_ 32 100000#32))) v)

/-- Each node's degree: ones added at the targets. -/
def degree (d : (⟨S1100000, .i32⟩ : BufTy).Contents (Elt F)) : (⟨S100000, .f32⟩ : BufTy).Contents (Elt F) :=
  Host.scatterAdd scatter_S100000_S1100000x1_S1100000_n_0_0_1
    (broadcastInDim S100000 ![] bcast_S_S100000 (constant S_ .f32 0x00000000#32))
    (broadcastInDim S1100000x1 ![0] bcast_S1100000_S1100000x1_0 d)
    (broadcastInDim S1100000 ![] bcast_S_S1100000 (constant S_ .f32 0x3F800000#32))

/-- Each node's weight: 1/sqrt(max(degree, tiny)) where the degree is positive, else 0. -/
def weight (deg : (⟨S100000, .f32⟩ : BufTy).Contents (Elt F)) : (⟨S100000, .f32⟩ : BufTy).Contents (Elt F) :=
  select (cmpf .ogt deg (broadcastInDim S100000 ![] bcast_S_S100000 (constant S_ .f32 0x00000000#32)))
    (Host.rsqrt (maximumf deg (broadcastInDim S100000 ![] bcast_S_S100000 (constant S_ .f32 0x2B8CBCCC#32))))
    (broadcastInDim S100000 ![] bcast_S_S100000 (id (constant S_ .f32 0x00000000#32)))

/-- Each edge's coefficient: the product of its endpoints' weights. -/
def coeff (w : (⟨S100000, .f32⟩ : BufTy).Contents (Elt F)) (s d : (⟨S1100000, .i32⟩ : BufTy).Contents (Elt F)) :
    (⟨S1100000, .f32⟩ : BufTy).Contents (Elt F) :=
  mulf (Host.gather gather_S100000_S1100000x1_S1100000_n_0_n_n_0_1_1 w (startRows s))
    (Host.gather gather_S100000_S1100000x1_S1100000_n_0_n_n_0_1_1 w (startRows d))

/-- One propagation step over 32 features: gather the source rows, scale by the coefficients, add into the target rows. -/
def spread32 (s d : (⟨S1100000, .i32⟩ : BufTy).Contents (Elt F)) (cf : (⟨S1100000, .f32⟩ : BufTy).Contents (Elt F))
    (h : (⟨S100000x32, .f32⟩ : BufTy).Contents (Elt F)) : (⟨S100000x32, .f32⟩ : BufTy).Contents (Elt F) :=
  Host.scatterAdd scatter_S100000x32_S1100000x1_S1100000x32_1_0_0_1
    (broadcastInDim S100000x32 ![] bcast_S_S100000x32 (constant S_ .f32 0x00000000#32))
    (broadcastInDim S1100000x1 ![0] bcast_S1100000_S1100000x1_0 d)
    (mulf (Host.gather gather_S100000x32_S1100000x1_S1100000x32_1_0_n_n_0_1_132 h (startRows s))
      (broadcastInDim S1100000x32 ![0, 1] bcast_S1100000x1_S1100000x32_0_1 (broadcastInDim S1100000x1 ![0] bcast_S1100000_S1100000x1_0 cf)))

/-- The same step over 64 features. -/
def spread64 (s d : (⟨S1100000, .i32⟩ : BufTy).Contents (Elt F)) (cf : (⟨S1100000, .f32⟩ : BufTy).Contents (Elt F))
    (h : (⟨S100000x64, .f32⟩ : BufTy).Contents (Elt F)) : (⟨S100000x64, .f32⟩ : BufTy).Contents (Elt F) :=
  Host.scatterAdd scatter_S100000x64_S1100000x1_S1100000x64_1_0_0_1
    (broadcastInDim S100000x64 ![] bcast_S_S100000x64 (constant S_ .f32 0x00000000#32))
    (broadcastInDim S1100000x1 ![0] bcast_S1100000_S1100000x1_0 d)
    (mulf (Host.gather gather_S100000x64_S1100000x1_S1100000x64_1_0_n_n_0_1_164 h (startRows s))
      (broadcastInDim S1100000x64 ![0, 1] bcast_S1100000x1_S1100000x64_0_1 (broadcastInDim S1100000x1 ![0] bcast_S1100000_S1100000x1_0 cf)))

/-- The edge coefficients as a function of the edge list alone. -/
def edgeCoeff (ei : (⟨S2x1000000, .i32⟩ : BufTy).Contents (Elt F)) : (⟨S1100000, .f32⟩ : BufTy).Contents (Elt F) :=
  coeff (weight (degree (endpoints1 ei))) (endpoints0 ei) (endpoints1 ei)

end Cert.GcnK

end
-- ==== Proof.Layers.lean ====
/-
  The three dense layers of the network, entry by entry, on the extended reals.

  Layer 1 has one input feature: entry (n, f) of its output is x(n) · W1(f). Layer 2 adds a bias to every row, takes the
  maximum with zero, and multiplies by a 32 × 64 weight table: entry (n, q) is Σ_k max(a(n, k) + b(k), 0) · W(k, q). The
  last layer does the same over 64 features into one output column and adds the final bias. Sums are over the feature
  index; no property of the entries is used.
-/
import Idealize.ShloMosaic.PureOps.Ideal
import Idealize.ShloMosaic.Lib.ValueIdx

noncomputable section

open scoped BigOperators

namespace Cert.Gcn

open Idealize.ShloMosaic Idealize.ShloMosaic.ValueIdx

/-- The zero the rectifier compares against. -/
abbrev zero32 : EReal := Ideal.ofBits .f32 0x00000000#32

/-- Layer 1: the outer product of the input column and the weight row. -/
def lin1 (x : (⟨2, ![100000, 1]⟩ : Shape).Idx → EReal) (w : (⟨2, ![1, 32]⟩ : Shape).Idx → EReal) :
    (⟨2, ![100000, 32]⟩ : Shape).Idx → EReal :=
  fun j => x (ix2 (j 0) 0) * w (ix2 0 (j 1))

theorem lin1_apply (x : (⟨2, ![100000, 1]⟩ : Shape).Idx → EReal) (w : (⟨2, ![1, 32]⟩ : Shape).Idx → EReal)
    (p : Fin 100000) (q : Fin 32) : lin1 x w (ix2 p q) = x (ix2 p 0) * w (ix2 0 q) := rfl

/-- Layer 2: bias, rectifier, 32 × 64 weights. -/
def lin2 (a : (⟨2, ![100000, 32]⟩ : Shape).Idx → EReal) (b : (⟨1, ![32]⟩ : Shape).Idx → EReal)
    (w : (⟨2, ![32, 64]⟩ : Shape).Idx → EReal) : (⟨2, ![100000, 64]⟩ : Shape).Idx → EReal :=
  fun j => ∑ k : Fin 32, max (a (ix2 (j 0) k) + b (ix1 k)) zero32 * w (ix2 k (j 1))

theorem lin2_apply (a : (⟨2, ![100000, 32]⟩ : Shape).Idx → EReal) (b : (⟨1, ![32]⟩ : Shape).Idx → EReal)
    (w : (⟨2, ![32, 64]⟩ : Shape).Idx → EReal) (p : Fin 100000) (q : Fin 64) :
    lin2 a b w (ix2 p q) = ∑ k : Fin 32, max (a (ix2 p k) + b (ix1 k)) zero32 * w (ix2 k q) := rfl

/-- The last layer: bias, rectifier, 64 × 1 weights, final bias. -/
def lin3 (a : (⟨2, ![100000, 64]⟩ : Shape).Idx → EReal) (b : (⟨1, ![64]⟩ : Shape).Idx → EReal)
    (w : (⟨2, ![64, 1]⟩ : Shape).Idx → EReal) (c : (⟨1, ![1]⟩ : Shape).Idx → EReal) :
    (⟨2, ![100000, 1]⟩ : Shape).Idx → EReal :=
  fun j => (∑ k : Fin 64, max (a (ix2 (j 0) k) + b (ix1 k)) zero32 * w (ix2 k (j 1))) + c (ix1 (j 1))

theorem lin3_apply (a : (⟨2, ![100000, 64]⟩ : Shape).Idx → EReal) (b : (⟨1, ![64]⟩ : Shape).Idx → EReal)
    (w : (⟨2, ![64, 1]⟩ : Shape).Idx → EReal) (c : (⟨1, ![1]⟩ : Shape).Idx → EReal) (p : Fin 100000) (u : Fin 1) :
    lin3 a b w c (ix2 p u) = (∑ k : Fin 64, max (a (ix2 p k) + b (ix1 k)) zero32 * w (ix2 k u)) + c (ix1 u) := rfl

end Cert.Gcn

end
-- ==== Proof.Spec.lean ====
/-
  The whole network as one function of its eight arguments.

  Two propagation steps over the graph, each after a dense layer, and a last dense layer:
  out = L3(spread(L2(spread(L1(x, W1)), b1, W2)), b2, Wf, bf), the edge coefficients computed once from the edge list.
-/
import proofs.«173035_j7576322310702_2_alg».proof.Proof.Glue
import proofs.«173035_j7576322310702_2_alg».proof.Proof.Layers

noncomputable section

namespace Cert.GcnK

open Idealize.ShloMosaic Cert.KernelIdeal Cert.Gcn

/-- The network's output array, on the extended reals. -/
def network (x : (⟨S100000x1, .f32⟩ : BufTy).Contents (Elt Ideal)) (ei : (⟨S2x1000000, .i32⟩ : BufTy).Contents (Elt Ideal))
    (w1 : (⟨S1x32, .f32⟩ : BufTy).Contents (Elt Ideal)) (b1 : (⟨S32, .f32⟩ : BufTy).Contents (Elt Ideal))
    (w2 : (⟨S32x64, .f32⟩ : BufTy).Contents (Elt Ideal)) (b2 : (⟨S64, .f32⟩ : BufTy).Contents (Elt Ideal))
    (wf : (⟨S64x1, .f32⟩ : BufTy).Contents (Elt Ideal)) (bf : (⟨S1, .f32⟩ : BufTy).Contents (Elt Ideal)) :
    (⟨S100000x1, .f32⟩ : BufTy).Contents (Elt Ideal) :=
  lin3 (spread64 (F := Ideal) (endpoints0 ei) (endpoints1 ei) (edgeCoeff ei)
      (lin2 (spread32 (F := Ideal) (endpoints0 ei) (endpoints1 ei) (edgeCoeff ei) (lin1 x w1)) b1 w2)) b2 wf bf

end Cert.GcnK

end
-- ==== Proof.KStretch.lean ====
/-
  The host stretches of the kernel's program, each read as a function of what it starts from.

  Between the three device regions the program runs straight lines of array operations. For any contents `X` of the
  buffers a line starts from, the buffers it writes hold the graph functions of `Glue` applied to the contents of the
  buffers it reads, and every buffer it does not write keeps its contents.
-/
import proofs.«173035_j7576322310702_2_alg».proof.Proof.Glue
import proofs.«173035_j7576322310702_2_alg».proof.Proof.Gen.KernelIdeal.Launch
import Idealize.ShloMosaic.Lib.StableHlo.Run

noncomputable section

namespace Cert.GcnK

open Idealize.ShloMosaic Idealize.ShloMosaic.StableHlo Cert.KernelIdeal Cert.KernelIdeal.Gen

variable {F : FTy → Type} [FloatOps F]
variable (X : Valuation τ sig (Elt F))

/-! ## The first line: endpoints, degrees and the two operands of the weight's selection -/

/-- The sources of all edges. -/
theorem line0_v5 : after (hostOps0 (F := F)) X (Proc.devRef .tc main_v5) = endpoints0 (X (Proc.devRef .tc main_arg1)) := by
  after_results; rfl

/-- The targets of all edges. -/
theorem line0_v6 : after (hostOps0 (F := F)) X (Proc.devRef .tc main_v6) = endpoints1 (X (Proc.devRef .tc main_arg1)) := by
  after_results; rfl

set_option maxHeartbeats 4000000 in
/-- Where the degree is positive. -/
theorem line0_v12 : after (hostOps0 (F := F)) X (Proc.devRef .tc main_v12)
    = cmpf .ogt (degree (endpoints1 (X (Proc.devRef .tc main_arg1)))) (broadcastInDim S100000 ![] Facts₀.bcast_S_S100000 (constant S_ .f32 0x00000000#32)) := by
  after_results; rfl

set_option maxHeartbeats 4000000 in
/-- One over the square root of the degree kept away from zero. -/
theorem line0_v15 : after (hostOps0 (F := F)) X (Proc.devRef .tc main_v15)
    = Host.rsqrt (maximumf (degree (endpoints1 (X (Proc.devRef .tc main_arg1)))) (broadcastInDim S100000 ![] Facts₀.bcast_S_S100000 (constant S_ .f32 0x2B8CBCCC#32))) := by
  after_results; rfl

/-- The zero the selection falls back to. -/
theorem line0_cst3 : after (hostOps0 (F := F)) X (Proc.devRef .tc main_cst_3) = constant S_ .f32 0x00000000#32 := by
  after_results

/-- The buffers this line writes. -/
abbrev line0_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]

theorem line0_writes : (hostOps0 : List (HloOp τ sig (Elt F))).Forall fun op => op.writes ⊆ (line0_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the line does not write keeps its contents. -/
theorem line0_keeps (r : Ref sig .tc) (h : r ∉ line0_W) : after (hostOps0 (F := F)) X (Proc.devRef .tc r) = X (Proc.devRef .tc r) :=
  after_of_writes_sub hostOps0 X line0_writes h

/-! ## The selection of the weights (an outlined function's three operations) -/

/-- The node weights. -/
theorem line01_v16 : after (hostOps0_1 (F := F)) X (Proc.devRef .tc main_v16)
    = select (X (Proc.devRef .tc main_v12)) (X (Proc.devRef .tc main_v15)) (broadcastInDim S100000 ![] Facts₀.bcast_S_S100000 (id (X (Proc.devRef .tc main_cst_3)))) := by
  after_results; rfl

/-- The buffers this line writes. -/
abbrev line01_W : List (Ref sig .tc) := [main_call0_v0, main_call0_v1, main_v16]

theorem line01_writes : (hostOps0_1 : List (HloOp τ sig (Elt F))).Forall fun op => op.writes ⊆ (line01_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the line does not write keeps its contents. -/
theorem line01_keeps (r : Ref sig .tc) (h : r ∉ line01_W) : after (hostOps0_1 (F := F)) X (Proc.devRef .tc r) = X (Proc.devRef .tc r) :=
  after_of_writes_sub hostOps0_1 X line01_writes h

/-! ## The edge coefficients -/

set_option maxHeartbeats 4000000 in
/-- Each edge's coefficient: the product of its endpoints' weights. -/
theorem line02_v31 : after (hostOps0_2 (F := F)) X (Proc.devRef .tc main_v31)
    = coeff (X (Proc.devRef .tc main_v16)) (X (Proc.devRef .tc main_v5)) (X (Proc.devRef .tc main_v6)) := by
  after_results_simp; rfl

/-- The buffers this line writes. -/
abbrev line02_W : List (Ref sig .tc) := [main_c, main_v17, main_v18, main_c_4, main_v19, main_v20, main_v21, main_v22, main_v23, main_c_5, main_v24, main_v25, main_c_6, main_v26, main_v27, main_v28, main_v29, main_v30, main_v31]

theorem line02_writes : (hostOps0_2 : List (HloOp τ sig (Elt F))).Forall fun op => op.writes ⊆ (line02_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the line does not write keeps its contents. -/
theorem line02_keeps (r : Ref sig .tc) (h : r ∉ line02_W) : after (hostOps0_2 (F := F)) X (Proc.devRef .tc r) = X (Proc.devRef .tc r) :=
  after_of_writes_sub hostOps0_2 X line02_writes h

/-! ## The line between the first and the second region -/

set_option maxHeartbeats 4000000 in
/-- The 32-feature propagation step of the first region's output. -/
theorem line1_v45 : after (hostOps1 (F := F)) X (Proc.devRef .tc main_v45)
    = spread32 (X (Proc.devRef .tc main_v5)) (X (Proc.devRef .tc main_v6)) (X (Proc.devRef .tc main_v31)) (X (Proc.devRef .tc main_v32)) := by
  after_results_simp; rfl

/-- The first bias as a one-row table. -/
theorem line1_v46 : after (hostOps1 (F := F)) X (Proc.devRef .tc main_v46) = shapeCast S1x32 (X (Proc.devRef .tc main_arg3)) Facts₀.shapeCasts_S32_S1x32 := by
  after_results; rfl

/-- The buffers this line writes. -/
abbrev line1_W : List (Ref sig .tc) := [main_c_7, main_v33, main_v34, main_c_8, main_v35, main_v36, main_v37, main_v38, main_v39, main_v40, main_v41, main_v42, main_cst_9, main_v43, main_v44, main_v45, main_v46]

theorem line1_writes : (hostOps1 : List (HloOp τ sig (Elt F))).Forall fun op => op.writes ⊆ (line1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the line does not write keeps its contents. -/
theorem line1_keeps (r : Ref sig .tc) (h : r ∉ line1_W) : after (hostOps1 (F := F)) X (Proc.devRef .tc r) = X (Proc.devRef .tc r) :=
  after_of_writes_sub hostOps1 X line1_writes h

/-! ## The line between the second and the third region -/

set_option maxHeartbeats 4000000 in
/-- The 64-feature propagation step of the second region's output. -/
theorem line2_v60 : after (hostOps2 (F := F)) X (Proc.devRef .tc main_v60)
    = spread64 (X (Proc.devRef .tc main_v5)) (X (Proc.devRef .tc main_v6)) (X (Proc.devRef .tc main_v31)) (X (Proc.devRef .tc main_v47)) := by
  after_results_simp; rfl

/-- The second bias as a one-row table. -/
theorem line2_v61 : after (hostOps2 (F := F)) X (Proc.devRef .tc main_v61) = shapeCast S1x64 (X (Proc.devRef .tc main_arg5)) Facts₀.shapeCasts_S64_S1x64 := by
  after_results; rfl

/-- The final bias as a one-entry table. -/
theorem line2_v62 : after (hostOps2 (F := F)) X (Proc.devRef .tc main_v62) = shapeCast S1x1 (X (Proc.devRef .tc main_arg7)) Facts₀.shapeCasts_S1_S1x1 := by
  after_results; rfl

/-- The buffers this line writes. -/
abbrev line2_W : List (Ref sig .tc) := [main_c_10, main_v48, main_v49, main_c_11, main_v50, main_v51, main_v52, main_v53, main_v54, main_v55, main_v56, main_v57, main_cst_12, main_v58, main_v59, main_v60, main_v61, main_v62]

theorem line2_writes : (hostOps2 : List (HloOp τ sig (Elt F))).Forall fun op => op.writes ⊆ (line2_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- A buffer the line does not write keeps its contents. -/
theorem line2_keeps (r : Ref sig .tc) (h : r ∉ line2_W) : after (hostOps2 (F := F)) X (Proc.devRef .tc r) = X (Proc.devRef .tc r) :=
  after_of_writes_sub hostOps2 X line2_writes h

end Cert.GcnK

end
-- ==== Proof.Region0.lean ====
/-
  The first device region: layer 1 over the node axis in ten blocks of 10000 rows.

  At grid point t the body loads rows 10000·t … 10000·t + 9999 of the input column and the whole weight row, and stores
  their outer product into the same rows of the output. So what point t writes back is block t of the whole-array
  function lin1, the ten blocks cover the output, and the output array ends holding lin1 of the two arrays the region
  found.
-/
import proofs.«173035_j7576322310702_2_alg».proof.Proof.Gen.KernelIdeal.Frame
import proofs.«173035_j7576322310702_2_alg».proof.Proof.Layers
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.GcnK.R0

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's stored value at row r, feature q: the loaded column at r times the loaded row at q. -/
theorem pay_apply (x0 : Vec Ideal S10000x1 .f32) (x1 : Vec Ideal S1x32 .f32) (r : Fin 10000) (q : Fin 32) :
    k0_pay1 x0 x1 (ix2 r q) = x0 (ix2 r 0) * x1 (ix2 0 q) := by
  unfold k0_pay1
  rw [mulf_apply, shapeCast_self, shapeCast_self]
  congr 1
  · refine broadcastTo_apply _ _ (ix2 r q) (ix2 r (0 : Fin 1)) fun ax => ?_
    match ax with
    | ⟨0, _⟩ => rfl
    | ⟨1, _⟩ => rfl
  · refine broadcastTo_apply _ _ (ix2 r q) (ix2 (0 : Fin 1) q) fun ax => ?_
    match ax with
    | ⟨0, _⟩ => rfl
    | ⟨1, _⟩ => rfl

/-- Where each window's block sits at point t: the column and the output move with t along the rows, the weight row stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input column's block at point t, row r, is the array's row 10000·t + r. -/
theorem col_apply (c : Dev nD) (t : Fin cfg0.N) (r : Fin 10000) (u : Fin 1) (i : S100000x1.Idx)
    (h0 : (i 0).val = t.val * 10000 + r.val) (h1 : (i 1).val = u.val) :
    (iblk0 V c 0 t : Vec Ideal S10000x1 .f32) (ix2 r u) = (V c main_arg0 : S100000x1.Idx → EReal) i := by
  obtain ⟨e0, e1, -⟩ := idx_facts t
  unfold iblk0
  rw [View.read_apply]
  show (V c main_arg0 : S100000x1.Idx → EReal) _ = _
  refine congrArg (V c main_arg0 : S100000x1.Idx → EReal) (funext fun a => Fin.ext ?_)
  match a with
  | ⟨0, _⟩ => show win0_0.index t (0 : Fin 2) * 10000 + 1 * r.val = (i 0).val; rw [e0, h0]; omega
  | ⟨1, _⟩ => show win0_0.index t (1 : Fin 2) * 1 + 1 * u.val = (i 1).val; rw [e1, h1]; omega

/-- The weight row's block at any point is the whole row. -/
theorem row_apply (c : Dev nD) (t : Fin cfg0.N) (u : Fin 1) (q : Fin 32) :
    (iblk0 V c 1 t : Vec Ideal S1x32 .f32) (ix2 u q) = (V c main_arg2 : S1x32.Idx → EReal) (ix2 u q) := by
  obtain ⟨-, -, e2, e3, -⟩ := idx_facts t
  unfold iblk0
  rw [View.read_apply]
  show (V c main_arg2 : S1x32.Idx → EReal) _ = _
  refine congrArg (V c main_arg2 : S1x32.Idx → EReal) (funext fun a => Fin.ext ?_)
  match a with
  | ⟨0, _⟩ => show win0_1.index t (0 : Fin 2) * 1 + 1 * u.val = u.val; rw [e2]; omega
  | ⟨1, _⟩ => show win0_1.index t (1 : Fin 2) * 32 + 1 * q.val = q.val; rw [e3]; omega

/-- What point t writes back is block t of lin1 of the arrays the region found. -/
theorem flushed_eq (c : Dev nD) (t : Fin cfg0.N) :
    (dat0 V c).flushed 2 t = ((cfg0.win 2).blk t).view.read (Elt Ideal) (lin1 (V c main_arg0) (V c main_arg2)) := by
  show (cfg0.win 2).cut (grid0.coords t) ((dat0 V c).after 2 t) = _
  rw [after0_2]
  unfold out0_2
  rw [View.canon_unit_zero hz]
  simp only [View.ld_unit_zero (S := S10000x1) hz, View.ld_unit_zero (S := S1x32) hz]
  obtain ⟨-, -, -, -, e4, e5⟩ := idx_facts t
  funext y
  obtain ⟨r, q, rfl⟩ : ∃ (r : Fin 10000) (q : Fin 32), y = ix2 r q := ⟨y 0, y 1, eq_ix2 y⟩
  rw [View.read_apply]
  show k0_pay1 (iblk0 V c 0 t) (iblk0 V c 1 t) (ix2 r q) = lin1 (V c main_arg0) (V c main_arg2) (((cfg0.win 2).blk t).view.emb (ix2 r q))
  have hi : ((cfg0.win 2).blk t).view.emb (ix2 r q) = ix2 (⟨t.val * 10000 + r.val, by have := t.isLt; have hN : cfg0.N = 10 := N_0; omega⟩ : Fin 100000) q := by
    funext a; apply Fin.ext
    match a with
    | ⟨0, _⟩ => show win0_2.index t (0 : Fin 2) * 10000 + 1 * r.val = t.val * 10000 + r.val; rw [e4]; omega
    | ⟨1, _⟩ => show win0_2.index t (1 : Fin 2) * 32 + 1 * q.val = q.val; rw [e5]; omega
  rw [hi, lin1_apply, pay_apply, col_apply V c t r 0 (ix2 ⟨t.val * 10000 + r.val, _⟩ 0) rfl rfl, row_apply V c t 0 q]

/-- An index of the output is in point t's block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v32).slice (win0_2.rect t)).set ↔ _
  rw [View.set_slice_whole, Rect.mem_set_unit]
  exact Iff.rfl

/-- Row n of the output lies in the block of point n / 10000. -/
theorem cover (i : S100000x32.Idx) : ∃ t : Fin cfg0.N, (cfg0.win 2).flush t = true ∧ i ∈ ((cfg0.win 2).blk t).view.set := by
  have hN : cfg0.N = 10 := N_0
  have hi0 : (i 0).val < 100000 := (i 0).isLt
  have hi1 : (i 1).val < 32 := (i 1).isLt
  refine ⟨⟨(i 0).val / 10000, by omega⟩, flush0_2 _, ?_⟩
  rw [mem_blk]
  obtain ⟨-, -, -, -, e4, e5⟩ := idx_facts ⟨(i 0).val / 10000, by omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 32 ≤ (i 1).val ∧ (i 1).val < win0_2.index _ (1 : Fin 2) * 32 + 32; rw [e5]; omega

/-- The output array after the region: layer 1 of the input column and the weight row as the region found them. -/
theorem final (c : Dev nD) : (dat0 V c).arrAt 2 cfg0.N = lin1 (V c main_arg0) (V c main_arg2) :=
  (dat0 V c).arrAt_eq_of_cover 2 (lin1 (V c main_arg0) (V c main_arg2)) (fun t _ => flushed_eq V c t) cover

end Cert.GcnK.R0

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.Region1.lean ====
/-
  The second device region: bias, rectifier and the 32 × 64 weights, over the node axis in ten blocks of 10000 rows.

  At grid point t the body loads rows 10000·t … 10000·t + 9999 of the propagated features, the bias row and the whole
  weight table; it adds the bias to every row, takes the maximum with zero, and multiplies by the weights into a zero
  accumulator. Rounding the operands to a narrower float format is the identity on the extended reals, so entry (r, q)
  of what it stores is Σ_k max(a(r, k) + b(0, k), 0) · W(k, q): block t of one whole-array function, and the ten blocks
  cover the output.
-/
import proofs.«173035_j7576322310702_2_alg».proof.Proof.Gen.KernelIdeal.Frame
import proofs.«173035_j7576322310702_2_alg».proof.Proof.Layers
import proofs.«173035_j7576322310702_2_alg».proof.Proof.LibPlainDot
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.GcnK.R1

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Layer 2 with the bias given as a one-row table. -/
def lin2row (a : S100000x32.Idx → EReal) (b : S1x32.Idx → EReal) (w : S32x64.Idx → EReal) : S100000x64.Idx → EReal :=
  fun j => ∑ k : Fin 32, max (a (ix2 (j 0) k) + b (ix2 0 k)) zero32 * w (ix2 k (j 1))

theorem lin2row_apply (a : S100000x32.Idx → EReal) (b : S1x32.Idx → EReal) (w : S32x64.Idx → EReal) (p : Fin 100000) (q : Fin 64) :
    lin2row a b w (ix2 p q) = ∑ k : Fin 32, max (a (ix2 p k) + b (ix2 0 k)) zero32 * w (ix2 k q) := rfl

/-- The product's left index keeps the row. -/
theorem lhs0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl

/-- The product's right index keeps the column. -/
theorem rhs1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The body's stored value at row r, column q. -/
theorem pay_apply (x0 : FVec Ideal S10000x32 .f32) (x1 : FVec Ideal S1x32 .f32) (x2 : FVec Ideal S32x64 .f32) (r : Fin 10000) (q : Fin 64) :
    k1_pay1 x0 x1 x2 (ix2 r q) = ∑ k : Fin 32, max (x0 (ix2 r k) + x1 (ix2 0 k)) zero32 * x2 (ix2 k q) := by
  unfold k1_pay1
  refine (Cert.LibPlainDot.matmul_zero_apply dot_S10000x32_S32x64_S10000x64_1_0_0_1_n_n rfl rfl lhs0 rhs1 rfl rfl none _ _ r q).trans ?_
  refine Finset.sum_congr rfl fun k _ => ?_
  rw [truncf_apply, truncf_apply, maximumf_apply, addf_apply, shapeCast_self, shapeCast_self, broadcast_apply,
    broadcastTo_apply x1 _ (ix2 r k) (ix2 (0 : Fin 1) k) (fun ax => by
      match ax with
      | ⟨0, _⟩ => rfl
      | ⟨1, _⟩ => rfl)]
  rfl

/-- Where each window's block sits at point t. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The features' block at point t, row r, is the array's row 10000·t + r. -/
theorem feat_apply (c : Dev nD) (t : Fin cfg1.N) (r : Fin 10000) (k : Fin 32) (i : S100000x32.Idx)
    (h0 : (i 0).val = t.val * 10000 + r.val) (h1 : (i 1).val = k.val) :
    (iblk1 V c 0 t : Vec Ideal S10000x32 .f32) (ix2 r k) = (V c main_v45 : S100000x32.Idx → EReal) i := by
  obtain ⟨e0, e1, -⟩ := idx_facts t
  unfold iblk1
  rw [View.read_apply]
  show (V c main_v45 : S100000x32.Idx → EReal) _ = _
  refine congrArg (V c main_v45 : S100000x32.Idx → EReal) (funext fun a => Fin.ext ?_)
  match a with
  | ⟨0, _⟩ => show win1_0.index t (0 : Fin 2) * 10000 + 1 * r.val = (i 0).val; rw [e0, h0]; omega
  | ⟨1, _⟩ => show win1_0.index t (1 : Fin 2) * 32 + 1 * k.val = (i 1).val; rw [e1, h1]; omega

/-- The bias row's block at any point is the whole row. -/
theorem bias_apply (c : Dev nD) (t : Fin cfg1.N) (u : Fin 1) (k : Fin 32) :
    (iblk1 V c 1 t : Vec Ideal S1x32 .f32) (ix2 u k) = (V c main_v46 : S1x32.Idx → EReal) (ix2 u k) := by
  obtain ⟨-, -, e2, e3, -⟩ := idx_facts t
  unfold iblk1
  rw [View.read_apply]
  show (V c main_v46 : S1x32.Idx → EReal) _ = _
  refine congrArg (V c main_v46 : S1x32.Idx → EReal) (funext fun a => Fin.ext ?_)
  match a with
  | ⟨0, _⟩ => show win1_1.index t (0 : Fin 2) * 1 + 1 * u.val = u.val; rw [e2]; omega
  | ⟨1, _⟩ => show win1_1.index t (1 : Fin 2) * 32 + 1 * k.val = k.val; rw [e3]; omega

/-- The weight table's block at any point is the whole table. -/
theorem wts_apply (c : Dev nD) (t : Fin cfg1.N) (k : Fin 32) (q : Fin 64) :
    (iblk1 V c 2 t : Vec Ideal S32x64 .f32) (ix2 k q) = (V c main_arg4 : S32x64.Idx → EReal) (ix2 k q) := by
  obtain ⟨-, -, -, -, e4, e5, -⟩ := idx_facts t
  unfold iblk1
  rw [View.read_apply]
  show (V c main_arg4 : S32x64.Idx → EReal) _ = _
  refine congrArg (V c main_arg4 : S32x64.Idx → EReal) (funext fun a => Fin.ext ?_)
  match a with
  | ⟨0, _⟩ => show win1_2.index t (0 : Fin 2) * 32 + 1 * k.val = k.val; rw [e4]; omega
  | ⟨1, _⟩ => show win1_2.index t (1 : Fin 2) * 64 + 1 * q.val = q.val; rw [e5]; omega

/-- What point t writes back is block t of layer 2 of the arrays the region found. -/
theorem flushed_eq (c : Dev nD) (t : Fin cfg1.N) :
    (dat1 V c).flushed 3 t = ((cfg1.win 3).blk t).view.read (Elt Ideal) (lin2row (V c main_v45) (V c main_v46) (V c main_arg4)) := by
  show (cfg1.win 3).cut (grid1.coords t) ((dat1 V c).after 3 t) = _
  rw [after1_3]
  unfold out1_3
  rw [View.canon_unit_zero hz]
  simp only [View.ld_unit_zero (S := S10000x32) hz, View.ld_unit_zero (S := S1x32) hz, View.ld_unit_zero (S := S32x64) hz]
  obtain ⟨-, -, -, -, -, -, e6, e7⟩ := idx_facts t
  funext y
  obtain ⟨r, q, rfl⟩ : ∃ (r : Fin 10000) (q : Fin 64), y = ix2 r q := ⟨y 0, y 1, eq_ix2 y⟩
  rw [View.read_apply]
  show k1_pay1 (iblk1 V c 0 t) (iblk1 V c 1 t) (iblk1 V c 2 t) (ix2 r q) = lin2row (V c main_v45) (V c main_v46) (V c main_arg4) (((cfg1.win 3).blk t).view.emb (ix2 r q))
  have hi : ((cfg1.win 3).blk t).view.emb (ix2 r q) = ix2 (⟨t.val * 10000 + r.val, by have := t.isLt; have hN : cfg1.N = 10 := N_1; omega⟩ : Fin 100000) q := by
    funext a; apply Fin.ext
    match a with
    | ⟨0, _⟩ => show win1_3.index t (0 : Fin 2) * 10000 + 1 * r.val = t.val * 10000 + r.val; rw [e6]; omega
    | ⟨1, _⟩ => show win1_3.index t (1 : Fin 2) * 64 + 1 * q.val = q.val; rw [e7]; omega
  rw [hi, lin2row_apply, pay_apply]
  refine Finset.sum_congr rfl fun k _ => ?_
  rw [feat_apply V c t r k (ix2 ⟨t.val * 10000 + r.val, _⟩ k) rfl rfl, bias_apply V c t 0 k, wts_apply V c t k q]

/-- An index of the output is in point t's block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v47).slice (win1_3.rect t)).set ↔ _
  rw [View.set_slice_whole, Rect.mem_set_unit]
  exact Iff.rfl

/-- Row n of the output lies in the block of point n / 10000. -/
theorem cover (i : S100000x64.Idx) : ∃ t : Fin cfg1.N, (cfg1.win 3).flush t = true ∧ i ∈ ((cfg1.win 3).blk t).view.set := by
  have hN : cfg1.N = 10 := N_1
  have hi0 : (i 0).val < 100000 := (i 0).isLt
  have hi1 : (i 1).val < 64 := (i 1).isLt
  refine ⟨⟨(i 0).val / 10000, by omega⟩, flush1_3 _, ?_⟩
  rw [mem_blk]
  obtain ⟨-, -, -, -, -, -, e6, e7⟩ := idx_facts ⟨(i 0).val / 10000, by omega⟩
  intro a
  match a with
  | ⟨0, _⟩ => show win1_3.index _ (0 : Fin 2) * 10000 ≤ (i 0).val ∧ (i 0).val < win1_3.index _ (0 : Fin 2) * 10000 + 10000; rw [e6]; show (i 0).val / 10000 * 10000 ≤ (i 0).val ∧ (i 0).val < (i 0).val / 10000 * 10000 + 10000; omega
  | ⟨1, _⟩ => show win1_3.index _ (1 : Fin 2) * 64 ≤ (i 1).val ∧ (i 1).val < win1_3.index _ (1 : Fin 2) * 64 + 64; rw [e7]; omega

/-- The output array after the region: layer 2 of the features, the bias row and the weights as the region found them. -/
theorem final (c : Dev nD) : (dat1 V c).arrAt 3 cfg1.N = lin2row (V c main_v45) (V c main_v46) (V c main_arg4) :=
  (dat1 V c).arrAt_eq_of_cover 3 (lin2row (V c main_v45) (V c main_v46) (V c main_arg4)) (fun t _ => flushed_eq V c t) cover

end Cert.GcnK.R1

end
-- ==== Proof.Region2.lean ====
/-
  The third device region: bias, rectifier, the 64 × 1 weights and the final bias, over the node axis in ten blocks.

  At grid point t the body loads rows 10000·t … 10000·t + 9999 of the propagated features, the bias row, the weight column
  and the one-entry final bias; entry (r, 0) of what it stores is Σ_k max(a(r, k) + b(0, k), 0) · W(k, 0) + c(0, 0): block
  t of one whole-array function, and the ten blocks cover the output.
-/
import proofs.«173035_j7576322310702_2_alg».proof.Proof.Gen.KernelIdeal.Frame
import proofs.«173035_j7576322310702_2_alg».proof.Proof.Layers
import proofs.«173035_j7576322310702_2_alg».proof.Proof.LibPlainDot
import Idealize.ShloMosaic.Lib.Pipeline.Value
import Idealize.ShloMosaic.Lib.ValueIdx
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.GcnK.R2

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The last layer with both biases given as one-row tables. -/
def lin3row (a : S100000x64.Idx → EReal) (b : S1x64.Idx → EReal) (w : S64x1.Idx → EReal) (cb : S1x1.Idx → EReal) : S100000x1.Idx → EReal :=
  fun j => (∑ k : Fin 64, max (a (ix2 (j 0) k) + b (ix2 0 k)) zero32 * w (ix2 k (j 1))) + cb (ix2 0 0)

theorem lin3row_apply (a : S100000x64.Idx → EReal) (b : S1x64.Idx → EReal) (w : S64x1.Idx → EReal) (cb : S1x1.Idx → EReal) (p : Fin 100000) (u : Fin 1) :
    lin3row a b w cb (ix2 p u) = (∑ k : Fin 64, max (a (ix2 p k) + b (ix2 0 k)) zero32 * w (ix2 k u)) + cb (ix2 0 0) := rfl

/-- The product's left index keeps the row. -/
theorem lhs0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl

/-- The product's right index keeps the column. -/
theorem rhs1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- The body's stored value at row r. -/
theorem pay_apply (x0 : FVec Ideal S10000x64 .f32) (x1 : FVec Ideal S1x64 .f32) (x2 : FVec Ideal S64x1 .f32) (x3 : FVec Ideal S1x1 .f32) (r : Fin 10000) (u : Fin 1) :
    k2_pay1 x0 x1 x2 x3 (ix2 r u) = (∑ k : Fin 64, max (x0 (ix2 r k) + x1 (ix2 0 k)) zero32 * x2 (ix2 k u)) + x3 (ix2 0 0) := by
  unfold k2_pay1
  rw [addf_apply]
  refine congrArg₂ (· + ·) ?_ ?_
  · refine (Cert.LibPlainDot.matmul_zero_apply dot_S10000x64_S64x1_S10000x1_1_0_0_1_n_n rfl rfl lhs0 rhs1 rfl rfl none _ _ r u).trans ?_
    refine Finset.sum_congr rfl fun k _ => ?_
    rw [truncf_apply, truncf_apply, maximumf_apply, addf_apply, shapeCast_self, shapeCast_self, broadcast_apply,
      broadcastTo_apply x1 _ (ix2 r k) (ix2 (0 : Fin 1) k) (fun ax => by
        match ax with
        | ⟨0, _⟩ => rfl
        | ⟨1, _⟩ => rfl)]
    rfl
  · rw [shapeCast_self]
    refine broadcastTo_apply x3 _ (ix2 r u) (ix2 (0 : Fin 1) (0 : Fin 1)) fun ax => ?_
    match ax with
    | ⟨0, _⟩ => rfl
    | ⟨1, _⟩ => rfl

/-- Where each window's block sits at point t. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The features' block at point t, row r, is the array's row 10000·t + r. -/
theorem feat_apply (c : Dev nD) (t : Fin cfg2.N) (r : Fin 10000) (k : Fin 64) (i : S100000x64.Idx)
    (h0 : (i 0).val = t.val * 10000 + r.val) (h1 : (i 1).val = k.val) :
    (iblk2 V c 0 t : Vec Ideal S10000x64 .f32) (ix2 r k) = (V c main_v60 : S100000x64.Idx → EReal) i := by
  obtain ⟨e0, e1, -⟩ := idx_facts t
  unfold iblk2
  rw [View.read_apply]
  show (V c main_v60 : S100000x64.Idx → EReal) _ = _
  refine congrArg (V c main_v60 : S100000x64.Idx → EReal) (funext fun a => Fin.ext ?_)
  match a with
  | ⟨0, _⟩ => show win2_0.index t (0 : Fin 2) * 10000 + 1 * r.val = (i 0).val; rw [e0, h0]; omega
  | ⟨1, _⟩ => show win2_0.index t (1 : Fin 2) * 64 + 1 * k.val = (i 1).val; rw [e1, h1]; omega

/-- The bias row's block at any point is the whole row. -/
theorem bias_apply (c : Dev nD) (t : Fin cfg2.N) (u : Fin 1) (k : Fin 64) :
    (iblk2 V c 1 t : Vec Ideal S1x64 .f32) (ix2 u k) = (V c main_v61 : S1x64.Idx → EReal) (ix2 u k) := by
  obtain ⟨-, -, e2, e3, -⟩ := idx_facts t
  unfold iblk2
  rw [View.read_apply]
  show (V c main_v61 : S1x64.Idx → EReal) _ = _
  refine congrArg (V c main_v61 : S1x64.Idx → EReal) (funext fun a => Fin.ext ?_)
  match a with
  | ⟨0, _⟩ => show win2_1.index t (0 : Fin 2) * 1 + 1 * u.val = u.val; rw [e2]; omega
  | ⟨1, _⟩ => show win2_1.index t (1 : Fin 2) * 64 + 1 * k.val = k.val; rw [e3]; omega

/-- The weight column's block at any point is the whole column. -/
theorem wts_apply (c : Dev nD) (t : Fin cfg2.N) (k : Fin 64) (u : Fin 1) :
    (iblk2 V c 2 t : Vec Ideal S64x1 .f32) (ix2 k u) = (V c main_arg6 : S64x1.Idx → EReal) (ix2 k u) := by
  obtain ⟨-, -, -, -, e4, e5, -⟩ := idx_facts t
  unfold iblk2
  rw [View.read_apply]
  show (V c main_arg6 : S64x1.Idx → EReal) _ = _
  refine congrArg (V c main_arg6 : S64x1.Idx → EReal) (funext fun a => Fin.ext ?_)
  match a with
  | ⟨0, _⟩ => show win2_2.index t (0 : Fin 2) * 64 + 1 * k.val = k.val; rw [e4]; omega
  | ⟨1, _⟩ => show win2_2.index t (1 : Fin 2) * 1 + 1 * u.val = u.val; rw [e5]; omega

/-- The final bias's block at any point is the whole one-entry table. -/
theorem fbias_apply (c : Dev nD) (t : Fin cfg2.N) (u v : Fin 1) :
    (iblk2 V c 3 t : Vec Ideal S1x1 .f32) (ix2 u v) = (V c main_v62 : S1x1.Idx → EReal) (ix2 u v) := by
  obtain ⟨-, -, -, -, -, -, e6, e7, -⟩ := idx_facts t
  unfold iblk2
  rw [View.read_apply]
  show (V c main_v62 : S1x1.Idx → EReal) _ = _
  refine congrArg (V c main_v62 : S1x1.Idx → EReal) (funext fun a => Fin.ext ?_)
  match a with
  | ⟨0, _⟩ => show win2_3.index t (0 : Fin 2) * 1 + 1 * u.val = u.val; rw [e6]; omega
  | ⟨1, _⟩ => show win2_3.index t (1 : Fin 2) * 1 + 1 * v.val = v.val; rw [e7]; omega

/-- What point t writes back is block t of the last layer of the arrays the region found. -/
theorem flushed_eq (c : Dev nD) (t : Fin cfg2.N) :
    (dat2 V c).flushed 4 t = ((cfg2.win 4).blk t).view.read (Elt Ideal) (lin3row (V c main_v60) (V c main_v61) (V c main_arg6) (V c main_v62)) := by
  show (cfg2.win 4).cut (grid2.coords t) ((dat2 V c).after 4 t) = _
  rw [after2_4]
  unfold out2_4
  rw [View.canon_unit_zero hz]
  simp only [View.ld_unit_zero (S := S10000x64) hz, View.ld_unit_zero (S := S1x64) hz, View.ld_unit_zero (S := S64x1) hz, View.ld_unit_zero (S := S1x1) hz]
  obtain ⟨-, -, -, -, -, -, -, -, e8, e9⟩ := idx_facts t
  funext y
  obtain ⟨r, u, rfl⟩ : ∃ (r : Fin 10000) (u : Fin 1), y = ix2 r u := ⟨y 0, y 1, eq_ix2 y⟩
  rw [View.read_apply]
  show k2_pay1 (iblk2 V c 0 t) (iblk2 V c 1 t) (iblk2 V c 2 t) (iblk2 V c 3 t) (ix2 r u) = lin3row (V c main_v60) (V c main_v61) (V c main_arg6) (V c main_v62) (((cfg2.win 4).blk t).view.emb (ix2 r u))
  have hi : ((cfg2.win 4).blk t).view.emb (ix2 r u) = ix2 (⟨t.val * 10000 + r.val, by have := t.isLt; have hN : cfg2.N = 10 := N_2; omega⟩ : Fin 100000) u := by
    funext a; apply Fin.ext
    match a with
    | ⟨0, _⟩ => show win2_4.index t (0 : Fin 2) * 10000 + 1 * r.val = t.val * 10000 + r.val; rw [e8]; omega
    | ⟨1, _⟩ => show win2_4.index t (1 : Fin 2) * 1 + 1 * u.val = u.val; rw [e9]; omega
  rw [hi, lin3row_apply, pay_apply, fbias_apply V c t 0 0]
  refine congrArg₂ (· + ·) (Finset.sum_congr rfl fun k _ => ?_) rfl
  rw [feat_apply V c t r k (ix2 ⟨t.val * 10000 + r.val, _⟩ k) rfl rfl, bias_apply V c t 0 k, wts_apply V c t k u]

/-- An index of the output is in point t's block iff each coordinate is in the block's range on its axis. -/
theorem mem_blk (t : Fin cfg2.N) (i : S100000x1.Idx) :
    i ∈ ((cfg2.win 4).blk t).view.set ↔ ∀ a : Fin 2, win2_4.index t a * S10000x1.size a ≤ (i a).val ∧ (i a).val < win2_4.index t a * S10000x1.size a + S10000x1.size a := by
  show i ∈ ((View.whole main_v63).slice (win2_4.rect t)).set ↔ _
  rw [View.set_slice_whole, Rect.mem_set_unit]
  exact Iff.rfl

/-- Row n of the output lies in the block of point n / 10000. -/
theorem cover (i : S100000x1.Idx) : ∃ t : Fin cfg2.N, (cfg2.win 4).flush t = true ∧ i ∈ ((cfg2.win 4).blk t).view.set := by
  have hN : cfg2.N = 10 := N_2
  have hi0 : (i 0).val < 100000 := (i 0).isLt
  have hi1 : (i 1).val < 1 := (i 1).isLt
  refine ⟨⟨(i 0).val / 10000, by omega⟩, flush2_4 _, ?_⟩
  rw [mem_blk]
  obtain ⟨-, -, -, -, -, -, -, -, e8, e9⟩ := idx_facts ⟨(i 0).val / 10000, by omega⟩
  intro a
  match a with
  | ⟨0, _⟩ => show win2_4.index _ (0 : Fin 2) * 10000 ≤ (i 0).val ∧ (i 0).val < win2_4.index _ (0 : Fin 2) * 10000 + 10000; rw [e8]; show (i 0).val / 10000 * 10000 ≤ (i 0).val ∧ (i 0).val < (i 0).val / 10000 * 10000 + 10000; omega
  | ⟨1, _⟩ => show win2_4.index _ (1 : Fin 2) * 1 ≤ (i 1).val ∧ (i 1).val < win2_4.index _ (1 : Fin 2) * 1 + 1; rw [e9]; omega

/-- The output array after the region: the last layer of the arrays the region found. -/
theorem final (c : Dev nD) : (dat2 V c).arrAt 4 cfg2.N = lin3row (V c main_v60) (V c main_v61) (V c main_arg6) (V c main_v62) :=
  (dat2 V c).arrAt_eq_of_cover 4 (lin3row (V c main_v60) (V c main_v61) (V c main_arg6) (V c main_v62)) (fun t _ => flushed_eq V c t) cover

end Cert.GcnK.R2

end
-- ==== Proof.KernelValue.lean ====
/-
  The kernel program's result array as the network of its arguments.

  The buffer contents are followed segment by segment from the launch. The three opening lines leave the two endpoint
  vectors and the edge coefficients; the first region leaves layer 1; the next line the 32-feature propagation step and
  the first bias as a row; the second region layer 2; the next line the 64-feature step and the two remaining biases as
  rows; the third region the last layer. A bias vector made a one-row table is read back entry by entry, which turns the
  row forms of layers 2 and 3 into their vector forms. Every other buffer a segment does not write is carried along.
-/
import proofs.«173035_j7576322310702_2_alg».proof.Proof.Spec
import proofs.«173035_j7576322310702_2_alg».proof.Proof.KStretch
import proofs.«173035_j7576322310702_2_alg».proof.Proof.Region0
import proofs.«173035_j7576322310702_2_alg».proof.Proof.Region1
import proofs.«173035_j7576322310702_2_alg».proof.Proof.Region2
import Idealize.ShloMosaic.Lib.ValueLayout

noncomputable section

open scoped BigOperators
open Idealize.ShloMosaic Idealize.ShloMosaic.TcCoe Idealize.SL.Sem Idealize.ShloMosaic.ValueIdx Idealize.ShloMosaic.StableHlo

namespace Cert.GcnK

open Cert.KernelIdeal Cert.KernelIdeal.Gen Cert.Gcn

/-- Layer 2 with its bias as a one-row table made from a vector is layer 2 of the vector. -/
theorem lin2row_of_vector (a : S100000x32.Idx → EReal) (b : S32.Idx → EReal) (w : S32x64.Idx → EReal) (h : S32.ShapeCasts S1x32) :
    R1.lin2row a (shapeCast S1x32 b h) w = lin2 a b w := by
  funext j
  obtain ⟨p, q, rfl⟩ : ∃ (p : Fin 100000) (q : Fin 64), j = ix2 p q := ⟨j 0, j 1, eq_ix2 j⟩
  rw [R1.lin2row_apply, lin2_apply]
  refine Finset.sum_congr rfl fun k _ => ?_
  rw [shapeCast_a_1a_apply b h 0 k]

/-- The last layer with its two biases as one-row tables made from vectors is the last layer of the vectors. -/
theorem lin3row_of_vector (a : S100000x64.Idx → EReal) (b : S64.Idx → EReal) (w : S64x1.Idx → EReal) (cb : S1.Idx → EReal)
    (h : S64.ShapeCasts S1x64) (h' : S1.ShapeCasts S1x1) :
    R2.lin3row a (shapeCast S1x64 b h) w (shapeCast S1x1 cb h') = lin3 a b w cb := by
  funext j
  obtain ⟨p, u, rfl⟩ : ∃ (p : Fin 100000) (u : Fin 1), j = ix2 p u := ⟨j 0, j 1, eq_ix2 j⟩
  rw [R2.lin3row_apply, lin3_apply, shapeCast_a_1a_apply cb h' 0 0]
  refine congrArg₂ (· + ·) (Finset.sum_congr rfl fun k _ => ?_) ?_
  · rw [shapeCast_a_1a_apply b h 0 k]
  · exact congrArg cb (congrArg ix1 (Subsingleton.elim _ _))

variable (m : (ℓ : Loc nD τ sig) → Buf (Elt Ideal) ℓ) (ρ : Dev nD → PrngReg) (c : Dev nD)

/-! ## After the three opening lines -/

theorem at3_keep (r : Ref sig .tc) (h0 : r ∉ line0_W) (h1 : r ∉ line01_W) (h2 : r ∉ line02_W) :
    W3 m ρ c (Proc.devRef .tc r) = m ((c.tc : Thread nD τ).loc r) := by
  show after hostOps0_2 (after hostOps0_1 (after hostOps0 (W0 m ρ c))) (Proc.devRef .tc r) = _
  rw [line02_keeps _ r h2, line01_keeps _ r h1, line0_keeps _ r h0]

theorem at3_v5 : W3 m ρ c (Proc.devRef .tc main_v5) = endpoints0 (m ((c.tc : Thread nD τ).loc main_arg1)) := by
  show after hostOps0_2 (after hostOps0_1 (after hostOps0 (W0 m ρ c))) (Proc.devRef .tc main_v5) = _
  rw [line02_keeps _ main_v5 (by decide), line01_keeps _ main_v5 (by decide), line0_v5]

theorem at3_v6 : W3 m ρ c (Proc.devRef .tc main_v6) = endpoints1 (m ((c.tc : Thread nD τ).loc main_arg1)) := by
  show after hostOps0_2 (after hostOps0_1 (after hostOps0 (W0 m ρ c))) (Proc.devRef .tc main_v6) = _
  rw [line02_keeps _ main_v6 (by decide), line01_keeps _ main_v6 (by decide), line0_v6]

theorem at3_v31 : W3 m ρ c (Proc.devRef .tc main_v31) = edgeCoeff (m ((c.tc : Thread nD τ).loc main_arg1)) := by
  show after hostOps0_2 (after hostOps0_1 (after hostOps0 (W0 m ρ c))) (Proc.devRef .tc main_v31) = _
  rw [line02_v31, line01_v16, line01_keeps _ main_v5 (by decide), line01_keeps _ main_v6 (by decide),
    line0_v12, line0_v15, line0_cst3, line0_v5, line0_v6]
  rfl

/-! ## After the first region -/

theorem at4_keep (r : Ref sig .tc) (hr : ∀ w, Pipeline.arrRef spec0 w ≠ r) (h0 : r ∉ line0_W) (h1 : r ∉ line01_W) (h2 : r ∉ line02_W) :
    W4 m ρ c (Proc.devRef .tc r) = m ((c.tc : Thread nD τ).loc r) :=
  (W4_of_ne m ρ c r hr).trans (at3_keep m ρ c r h0 h1 h2)

theorem at4_v5 : W4 m ρ c (Proc.devRef .tc main_v5) = endpoints0 (m ((c.tc : Thread nD τ).loc main_arg1)) :=
  (W4_of_ne m ρ c main_v5 (by decide)).trans (at3_v5 m ρ c)

theorem at4_v6 : W4 m ρ c (Proc.devRef .tc main_v6) = endpoints1 (m ((c.tc : Thread nD τ).loc main_arg1)) :=
  (W4_of_ne m ρ c main_v6 (by decide)).trans (at3_v6 m ρ c)

theorem at4_v31 : W4 m ρ c (Proc.devRef .tc main_v31) = edgeCoeff (m ((c.tc : Thread nD τ).loc main_arg1)) :=
  (W4_of_ne m ρ c main_v31 (by decide)).trans (at3_v31 m ρ c)

theorem at4_v32 : W4 m ρ c (Proc.devRef .tc main_v32) = lin1 (m ((c.tc : Thread nD τ).loc main_arg0)) (m ((c.tc : Thread nD τ).loc main_arg2)) := by
  refine (W4_arr m ρ c 2).trans ((R0.final (V3 m ρ) c).trans ?_)
  show lin1 (W3 m ρ c (Proc.devRef .tc main_arg0)) (W3 m ρ c (Proc.devRef .tc main_arg2)) = _
  rw [at3_keep m ρ c main_arg0 (by decide) (by decide) (by decide), at3_keep m ρ c main_arg2 (by decide) (by decide) (by decide)]

/-! ## After the line between the first and the second region -/

theorem at5_keep (r : Ref sig .tc) (h : r ∉ line1_W) (hr : ∀ w, Pipeline.arrRef spec0 w ≠ r) (h0 : r ∉ line0_W) (h1 : r ∉ line01_W) (h2 : r ∉ line02_W) :
    W5 m ρ c (Proc.devRef .tc r) = m ((c.tc : Thread nD τ).loc r) := by
  show after hostOps1 (W4 m ρ c) (Proc.devRef .tc r) = _
  rw [line1_keeps _ r h]
  exact at4_keep m ρ c r hr h0 h1 h2

theorem at5_v5 : W5 m ρ c (Proc.devRef .tc main_v5) = endpoints0 (m ((c.tc : Thread nD τ).loc main_arg1)) := by
  show after hostOps1 (W4 m ρ c) (Proc.devRef .tc main_v5) = _
  rw [line1_keeps _ main_v5 (by decide)]; exact at4_v5 m ρ c

theorem at5_v6 : W5 m ρ c (Proc.devRef .tc main_v6) = endpoints1 (m ((c.tc : Thread nD τ).loc main_arg1)) := by
  show after hostOps1 (W4 m ρ c) (Proc.devRef .tc main_v6) = _
  rw [line1_keeps _ main_v6 (by decide)]; exact at4_v6 m ρ c

theorem at5_v31 : W5 m ρ c (Proc.devRef .tc main_v31) = edgeCoeff (m ((c.tc : Thread nD τ).loc main_arg1)) := by
  show after hostOps1 (W4 m ρ c) (Proc.devRef .tc main_v31) = _
  rw [line1_keeps _ main_v31 (by decide)]; exact at4_v31 m ρ c

theorem at5_v45 : W5 m ρ c (Proc.devRef .tc main_v45)
    = spread32 (F := Ideal) (endpoints0 (m ((c.tc : Thread nD τ).loc main_arg1))) (endpoints1 (m ((c.tc : Thread nD τ).loc main_arg1))) (edgeCoeff (m ((c.tc : Thread nD τ).loc main_arg1))) (lin1 (m ((c.tc : Thread nD τ).loc main_arg0)) (m ((c.tc : Thread nD τ).loc main_arg2))) := by
  show after hostOps1 (W4 m ρ c) (Proc.devRef .tc main_v45) = _
  rw [line1_v45, at4_v5, at4_v6, at4_v31, at4_v32]

theorem at5_v46 : W5 m ρ c (Proc.devRef .tc main_v46) = shapeCast S1x32 (m ((c.tc : Thread nD τ).loc main_arg3)) Facts₀.shapeCasts_S32_S1x32 := by
  show after hostOps1 (W4 m ρ c) (Proc.devRef .tc main_v46) = _
  rw [line1_v46, at4_keep m ρ c main_arg3 (by decide) (by decide) (by decide) (by decide)]

/-! ## After the second region -/

theorem at6_keep (r : Ref sig .tc) (hr' : ∀ w, Pipeline.arrRef spec1 w ≠ r) (h : r ∉ line1_W) (hr : ∀ w, Pipeline.arrRef spec0 w ≠ r)
    (h0 : r ∉ line0_W) (h1 : r ∉ line01_W) (h2 : r ∉ line02_W) :
    W6 m ρ c (Proc.devRef .tc r) = m ((c.tc : Thread nD τ).loc r) :=
  (W6_of_ne m ρ c r hr').trans (at5_keep m ρ c r h hr h0 h1 h2)

theorem at6_v5 : W6 m ρ c (Proc.devRef .tc main_v5) = endpoints0 (m ((c.tc : Thread nD τ).loc main_arg1)) :=
  (W6_of_ne m ρ c main_v5 (by decide)).trans (at5_v5 m ρ c)

theorem at6_v6 : W6 m ρ c (Proc.devRef .tc main_v6) = endpoints1 (m ((c.tc : Thread nD τ).loc main_arg1)) :=
  (W6_of_ne m ρ c main_v6 (by decide)).trans (at5_v6 m ρ c)

theorem at6_v31 : W6 m ρ c (Proc.devRef .tc main_v31) = edgeCoeff (m ((c.tc : Thread nD τ).loc main_arg1)) :=
  (W6_of_ne m ρ c main_v31 (by decide)).trans (at5_v31 m ρ c)

theorem at6_v47 : W6 m ρ c (Proc.devRef .tc main_v47)
    = lin2 (spread32 (F := Ideal) (endpoints0 (m ((c.tc : Thread nD τ).loc main_arg1))) (endpoints1 (m ((c.tc : Thread nD τ).loc main_arg1))) (edgeCoeff (m ((c.tc : Thread nD τ).loc main_arg1))) (lin1 (m ((c.tc : Thread nD τ).loc main_arg0)) (m ((c.tc : Thread nD τ).loc main_arg2)))) (m ((c.tc : Thread nD τ).loc main_arg3)) (m ((c.tc : Thread nD τ).loc main_arg4)) := by
  refine (W6_arr m ρ c 3).trans ((R1.final (V5 m ρ) c).trans ?_)
  show R1.lin2row (W5 m ρ c (Proc.devRef .tc main_v45)) (W5 m ρ c (Proc.devRef .tc main_v46)) (W5 m ρ c (Proc.devRef .tc main_arg4)) = _
  rw [at5_v45, at5_v46, at5_keep m ρ c main_arg4 (by decide) (by decide) (by decide) (by decide) (by decide)]
  exact lin2row_of_vector _ _ _ _

/-! ## After the line between the second and the third region -/

theorem at7_v60 : W7 m ρ c (Proc.devRef .tc main_v60)
    = spread64 (F := Ideal) (endpoints0 (m ((c.tc : Thread nD τ).loc main_arg1))) (endpoints1 (m ((c.tc : Thread nD τ).loc main_arg1))) (edgeCoeff (m ((c.tc : Thread nD τ).loc main_arg1)))
        (lin2 (spread32 (F := Ideal) (endpoints0 (m ((c.tc : Thread nD τ).loc main_arg1))) (endpoints1 (m ((c.tc : Thread nD τ).loc main_arg1))) (edgeCoeff (m ((c.tc : Thread nD τ).loc main_arg1))) (lin1 (m ((c.tc : Thread nD τ).loc main_arg0)) (m ((c.tc : Thread nD τ).loc main_arg2)))) (m ((c.tc : Thread nD τ).loc main_arg3)) (m ((c.tc : Thread nD τ).loc main_arg4))) := by
  show after hostOps2 (W6 m ρ c) (Proc.devRef .tc main_v60) = _
  rw [line2_v60, at6_v5, at6_v6, at6_v31, at6_v47]

theorem at7_v61 : W7 m ρ c (Proc.devRef .tc main_v61) = shapeCast S1x64 (m ((c.tc : Thread nD τ).loc main_arg5)) Facts₀.shapeCasts_S64_S1x64 := by
  show after hostOps2 (W6 m ρ c) (Proc.devRef .tc main_v61) = _
  rw [line2_v61, at6_keep m ρ c main_arg5 (by decide) (by decide) (by decide) (by decide) (by decide) (by decide)]

theorem at7_v62 : W7 m ρ c (Proc.devRef .tc main_v62) = shapeCast S1x1 (m ((c.tc : Thread nD τ).loc main_arg7)) Facts₀.shapeCasts_S1_S1x1 := by
  show after hostOps2 (W6 m ρ c) (Proc.devRef .tc main_v62) = _
  rw [line2_v62, at6_keep m ρ c main_arg7 (by decide) (by decide) (by decide) (by decide) (by decide) (by decide)]

theorem at7_arg6 : W7 m ρ c (Proc.devRef .tc main_arg6) = (m ((c.tc : Thread nD τ).loc main_arg6)) := by
  show after hostOps2 (W6 m ρ c) (Proc.devRef .tc main_arg6) = _
  rw [line2_keeps _ main_arg6 (by decide)]
  exact at6_keep m ρ c main_arg6 (by decide) (by decide) (by decide) (by decide) (by decide) (by decide)

/-! ## After the third region: the result -/

/-- The result buffer at the last segment boundary is the network of the launch contents of the eight arguments. -/
theorem result_eq : W8 m ρ c (Proc.devRef .tc main_v63)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W8_arr m ρ c 4).trans ((R2.final (V7 m ρ) c).trans ?_)
  show R2.lin3row (W7 m ρ c (Proc.devRef .tc main_v60)) (W7 m ρ c (Proc.devRef .tc main_v61)) (W7 m ρ c (Proc.devRef .tc main_arg6)) (W7 m ρ c (Proc.devRef .tc main_v62)) = _
  rw [at7_v60, at7_v61, at7_arg6, at7_v62]
  exact lin3row_of_vector _ _ _ _ _ _

end Cert.GcnK

end
-- ==== Proof.RefTerms.lean ====
/-
  The pieces of the reference's result, as functions of what they read.

  The reference takes the two rows of the edge list, appends the self loops to each, and runs three dense layers; between
  the layers it propagates over the graph as `Glue` describes. Here are the row extraction, the appending of the self
  loops, and the three dense layers as the reference writes them: layer 1 is a product with the weights; layers 2 and 3
  first add a bias vector to every row (the vector placed on the second axis of a one-row table, the row repeated down the
  rows) and take the maximum with zero, then multiply by the weights; layer 3 adds a last bias the same way. Stated for
  any float model; nothing is evaluated.
-/
import proofs.«173035_j7576322310702_2_alg».proof.Proof.Glue
import proofs.«173035_j7576322310702_2_alg».proof.Proof.Gen.ReferenceIdeal

noncomputable section

namespace Cert.GcnR

open Idealize.ShloMosaic Cert.ReferenceIdeal Cert.ReferenceIdeal.Gen

variable {F : FTy → Type} [FloatOps F]

/-- Row 0 of the edge list, as a vector of E node numbers. -/
def row0 (ei : (⟨S2x1000000, .i32⟩ : BufTy).Contents (Elt F)) : (⟨S1000000, .i32⟩ : BufTy).Contents (Elt F) :=
  shapeCast S1000000 (extractStridedSlice S1x1000000 ![0, 0] ei slices_S2x1000000_S1x1000000_0_0) shapeCasts_S1x1000000_S1000000

/-- Row 1 of the edge list. -/
def row1 (ei : (⟨S2x1000000, .i32⟩ : BufTy).Contents (Elt F)) : (⟨S1000000, .i32⟩ : BufTy).Contents (Elt F) :=
  shapeCast S1000000 (extractStridedSlice S1x1000000 ![1, 0] ei slices_S2x1000000_S1x1000000_1_0) shapeCasts_S1x1000000_S1000000

/-- E node numbers with the N self loops appended. -/
def withLoops (v : (⟨S1000000, .i32⟩ : BufTy).Contents (Elt F)) : (⟨S1100000, .i32⟩ : BufTy).Contents (Elt F) :=
  concatenate S1100000 0 [⟨S1000000, v⟩, ⟨S100000, iotaInDim S100000 32 0⟩] concatenates_S1000000_S100000_S1100000_d0

/-- Row 0 with the self loops is the sources of all E + N edges. -/
theorem withLoops_row0 (ei : (⟨S2x1000000, .i32⟩ : BufTy).Contents (Elt F)) : withLoops (row0 ei) = Cert.GcnK.endpoints0 ei := rfl

/-- Row 1 with the self loops is the targets of all E + N edges. -/
theorem withLoops_row1 (ei : (⟨S2x1000000, .i32⟩ : BufTy).Contents (Elt F)) : withLoops (row1 ei) = Cert.GcnK.endpoints1 ei := rfl

/-- Layer 1 as the reference writes it: the product of the input column and the weight row. -/
def dense1 (x : (⟨S100000x1, .f32⟩ : BufTy).Contents (Elt F)) (w : (⟨S1x32, .f32⟩ : BufTy).Contents (Elt F)) :
    (⟨S100000x32, .f32⟩ : BufTy).Contents (Elt F) :=
  Host.dotGeneral dot_S100000x1_S1x32_S100000x32_1_0_0_1_n_n none x w

/-- Layer 2 as the reference writes it: bias row, maximum with zero, product with the 32 × 64 weights. -/
def dense2 (a : (⟨S100000x32, .f32⟩ : BufTy).Contents (Elt F)) (b : (⟨S32, .f32⟩ : BufTy).Contents (Elt F))
    (w : (⟨S32x64, .f32⟩ : BufTy).Contents (Elt F)) : (⟨S100000x64, .f32⟩ : BufTy).Contents (Elt F) :=
  Host.dotGeneral dot_S100000x32_S32x64_S100000x64_1_0_0_1_n_n none
    (maximumf (addf a (broadcastInDim S100000x32 ![0, 1] bcast_S1x32_S100000x32_0_1 (broadcastInDim S1x32 ![1] bcast_S32_S1x32_1 b)))
      (broadcastInDim S100000x32 ![] bcast_S_S100000x32 (constant S_ .f32 0x00000000#32))) w

/-- Layer 3 as the reference writes it: bias row, maximum with zero, product with the 64 × 1 weights, final bias. -/
def dense3 (a : (⟨S100000x64, .f32⟩ : BufTy).Contents (Elt F)) (b : (⟨S64, .f32⟩ : BufTy).Contents (Elt F))
    (w : (⟨S64x1, .f32⟩ : BufTy).Contents (Elt F)) (c : (⟨S1, .f32⟩ : BufTy).Contents (Elt F)) :
    (⟨S100000x1, .f32⟩ : BufTy).Contents (Elt F) :=
  addf (Host.dotGeneral dot_S100000x64_S64x1_S100000x1_1_0_0_1_n_n none
      (maximumf (addf a (broadcastInDim S100000x64 ![0, 1] bcast_S1x64_S100000x64_0_1 (broadcastInDim S1x64 ![1] bcast_S64_S1x64_1 b)))
        (broadcastInDim S100000x64 ![] bcast_S_S100000x64 (constant S_ .f32 0x00000000#32))) w)
    (broadcastInDim S100000x1 ![0, 1] bcast_S1x1_S100000x1_0_1 (broadcastInDim S1x1 ![1] bcast_S1_S1x1_1 c))

end Cert.GcnR

end
-- ==== Proof.RefSegs.lean ====
/-
  The reference's straight line of 132 array operations, cut into eight consecutive stretches, each read as a function of
  what it starts from.

  For any contents `X` of the buffers a stretch starts from, each buffer it writes that a later stretch reads holds a named
  function (`Glue`'s graph functions, or the row and layer functions of `RefTerms`) of the contents of the buffers it
  reads, and every buffer it does not write keeps its contents. The reference computes the endpoint vectors and the edge
  coefficients twice, once per propagation step; both times they are the same functions of the edge list. Stated for any
  float model; nothing is evaluated.
-/
import proofs.«173035_j7576322310702_2_alg».proof.Proof.RefTerms
import proofs.«173035_j7576322310702_2_alg».proof.Proof.RefRun
import Idealize.ShloMosaic.Lib.StableHlo.Run

noncomputable section

namespace Cert.GcnR

open Cert.ReferenceIdeal Cert.ReferenceIdeal.Gen Idealize.ShloMosaic Idealize.ShloMosaic.TcCoe Idealize.SL.Sem Idealize.ShloMosaic.StableHlo

variable {F : FTy → Type} [FloatOps F]

/-! ## The stretches -/

/-- The first stretch: the two rows of the edge list, layer 1's product, and both rows with the self loops appended (%0 … %7). -/
def segA1 : List (HloOp τ sig (Elt F)) :=
  [ unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    binary main_arg0 main_arg2 main_v4 ((fun l r => Host.dotGeneral dot_S100000x1_S1x32_S100000x32_1_0_0_1_n_n none l r) : (⟨S100000x1, .f32⟩ : BufTy).Contents (Elt F) → (⟨S1x32, .f32⟩ : BufTy).Contents (Elt F) → (⟨S100000x32, .f32⟩ : BufTy).Contents (Elt F)),
    nullary main_v5 (iotaInDim S100000 32 0),
    binary main_v1 main_v5 main_v6 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    binary main_v3 main_v5 main_v7 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) ]

/-- The second stretch: degrees, weights and the edge coefficients, from the two endpoint vectors (%cst … %32). -/
def segA2 : List (HloOp τ sig (Elt F)) :=
  [ nullary main_cst (constant S_ .f32 0x3F800000#32),
    unary main_cst main_v8 (broadcastInDim S1100000 ![] bcast_S_S1100000 : (⟨S_, .f32⟩ : BufTy).Contents (Elt F) → (⟨S1100000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1100000x1 ![0] bcast_S1100000_S1100000x1_0 : (⟨S1100000, .i32⟩ : BufTy).Contents (Elt F) → (⟨S1100000x1, .i32⟩ : BufTy).Contents (Elt F)),
    ternary main_v9 main_v10 main_v8 main_v11 ((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v16) (TRef.of (T := ⟨S100000, .f32⟩) main_call0_v1) (TRef.of (T := ⟨S100000, .f32⟩) main_v17) select,
    nullary main_c (constantI S_ 32 0#32),
    unary main_c main_v18 (broadcastInDim S1100000 ![] bcast_S_S1100000 : (⟨S_, .i32⟩ : BufTy).Contents (Elt F) → (⟨S1100000, .i32⟩ : BufTy).Contents (Elt F)),
    binary main_v6 main_v18 main_v19 (cmpi .slt : (⟨S1100000, .i32⟩ : BufTy).Contents (Elt F) → (⟨S1100000, .i32⟩ : BufTy).Contents (Elt F) → (⟨S1100000, .i1⟩ : BufTy).Contents (Elt F)),
    nullary main_c_4 (constantI S_ 32 100000#32),
    unary main_c_4 main_v20 (broadcastInDim S1100000 ![] bcast_S_S1100000 : (⟨S_, .i32⟩ : BufTy).Contents (Elt F) → (⟨S1100000, .i32⟩ : BufTy).Contents (Elt F)),
    binary main_v6 main_v20 main_v21 (addi : (⟨S1100000, .i32⟩ : BufTy).Contents (Elt F) → (⟨S1100000, .i32⟩ : BufTy).Contents (Elt F) → (⟨S1100000, .i32⟩ : BufTy).Contents (Elt F)),
    ternary main_v19 main_v21 main_v6 main_v22 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v22 main_v23 (broadcastInDim S1100000x1 ![0] bcast_S1100000_S1100000x1_0 : (⟨S1100000, .i32⟩ : BufTy).Contents (Elt F) → (⟨S1100000x1, .i32⟩ : BufTy).Contents (Elt F)),
    binary main_v17 main_v23 main_v24 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    nullary main_c_5 (constantI S_ 32 0#32),
    unary main_c_5 main_v25 (broadcastInDim S1100000 ![] bcast_S_S1100000 : (⟨S_, .i32⟩ : BufTy).Contents (Elt F) → (⟨S1100000, .i32⟩ : BufTy).Contents (Elt F)),
    binary main_v7 main_v25 main_v26 (cmpi .slt : (⟨S1100000, .i32⟩ : BufTy).Contents (Elt F) → (⟨S1100000, .i32⟩ : BufTy).Contents (Elt F) → (⟨S1100000, .i1⟩ : BufTy).Contents (Elt F)),
    nullary main_c_6 (constantI S_ 32 100000#32),
    unary main_c_6 main_v27 (broadcastInDim S1100000 ![] bcast_S_S1100000 : (⟨S_, .i32⟩ : BufTy).Contents (Elt F) → (⟨S1100000, .i32⟩ : BufTy).Contents (Elt F)),
    binary main_v7 main_v27 main_v28 (addi : (⟨S1100000, .i32⟩ : BufTy).Contents (Elt F) → (⟨S1100000, .i32⟩ : BufTy).Contents (Elt F) → (⟨S1100000, .i32⟩ : BufTy).Contents (Elt F)),
    ternary main_v26 main_v28 main_v7 main_v29 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v29 main_v30 (broadcastInDim S1100000x1 ![0] bcast_S1100000_S1100000x1_0 : (⟨S1100000, .i32⟩ : BufTy).Contents (Elt F) → (⟨S1100000x1, .i32⟩ : BufTy).Contents (Elt F)),
    binary main_v17 main_v30 main_v31 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    binary main_v24 main_v31 main_v32 (mulf : (⟨S1100000, .f32⟩ : BufTy).Contents (Elt F) → (⟨S1100000, .f32⟩ : BufTy).Contents (Elt F) → (⟨S1100000, .f32⟩ : BufTy).Contents (Elt F)) ]

/-- The third stretch: one propagation step over the 32 features of layer 1's output (%c_7 … %45). -/
def segB : List (HloOp τ sig (Elt F)) :=
  [ nullary main_c_7 (constantI S_ 32 0#32),
    unary main_c_7 main_v33 (broadcastInDim S1100000 ![] bcast_S_S1100000 : (⟨S_, .i32⟩ : BufTy).Contents (Elt F) → (⟨S1100000, .i32⟩ : BufTy).Contents (Elt F)),
    binary main_v6 main_v33 main_v34 (cmpi .slt : (⟨S1100000, .i32⟩ : BufTy).Contents (Elt F) → (⟨S1100000, .i32⟩ : BufTy).Contents (Elt F) → (⟨S1100000, .i1⟩ : BufTy).Contents (Elt F)),
    nullary main_c_8 (constantI S_ 32 100000#32),
    unary main_c_8 main_v35 (broadcastInDim S1100000 ![] bcast_S_S1100000 : (⟨S_, .i32⟩ : BufTy).Contents (Elt F) → (⟨S1100000, .i32⟩ : BufTy).Contents (Elt F)),
    binary main_v6 main_v35 main_v36 (addi : (⟨S1100000, .i32⟩ : BufTy).Contents (Elt F) → (⟨S1100000, .i32⟩ : BufTy).Contents (Elt F) → (⟨S1100000, .i32⟩ : BufTy).Contents (Elt F)),
    ternary main_v34 main_v36 main_v6 main_v37 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v37 main_v38 (broadcastInDim S1100000x1 ![0] bcast_S1100000_S1100000x1_0 : (⟨S1100000, .i32⟩ : BufTy).Contents (Elt F) → (⟨S1100000x1, .i32⟩ : BufTy).Contents (Elt F)),
    binary main_v4 main_v38 main_v39 ((fun x i => Host.gather gather_S100000x32_S1100000x1_S1100000x32_1_0_n_n_0_1_132 x i) : (⟨S100000x32, .f32⟩ : BufTy).Contents (Elt F) → (⟨S1100000x1, .i32⟩ : BufTy).Contents (Elt F) → (⟨S1100000x32, .f32⟩ : BufTy).Contents (Elt F)),
    unary main_v32 main_v40 (broadcastInDim S1100000x1 ![0] bcast_S1100000_S1100000x1_0 : (⟨S1100000, .f32⟩ : BufTy).Contents (Elt F) → (⟨S1100000x1, .f32⟩ : BufTy).Contents (Elt F)),
    unary main_v40 main_v41 (broadcastInDim S1100000x32 ![0, 1] bcast_S1100000x1_S1100000x32_0_1 : (⟨S1100000x1, .f32⟩ : BufTy).Contents (Elt F) → (⟨S1100000x32, .f32⟩ : BufTy).Contents (Elt F)),
    binary main_v39 main_v41 main_v42 (mulf : (⟨S1100000x32, .f32⟩ : BufTy).Contents (Elt F) → (⟨S1100000x32, .f32⟩ : BufTy).Contents (Elt F) → (⟨S1100000x32, .f32⟩ : BufTy).Contents (Elt F)),
    nullary main_cst_9 (constant S_ .f32 0x00000000#32),
    unary main_cst_9 main_v43 (broadcastInDim S100000x32 ![] bcast_S_S100000x32 : (⟨S_, .f32⟩ : BufTy).Contents (Elt F) → (⟨S100000x32, .f32⟩ : BufTy).Contents (Elt F)),
    unary main_v7 main_v44 (broadcastInDim S1100000x1 ![0] bcast_S1100000_S1100000x1_0 : (⟨S1100000, .i32⟩ : BufTy).Contents (Elt F) → (⟨S1100000x1, .i32⟩ : BufTy).Contents (Elt F)),
    ternary main_v43 main_v44 main_v42 main_v45 ((fun x i u => Host.scatterAdd scatter_S100000x32_S1100000x1_S1100000x32_1_0_0_1 x i u) : (⟨S100000x32, .f32⟩ : BufTy).Contents (Elt F) → (⟨S1100000x1, .i32⟩ : BufTy).Contents (Elt F) → (⟨S1100000x32, .f32⟩ : BufTy).Contents (Elt F) → (⟨S100000x32, .f32⟩ : BufTy).Contents (Elt F)) ]

/-- The fourth stretch: layer 2 (%46 … %50). -/
def segC : List (HloOp τ sig (Elt F)) :=
  [ unary main_arg3 main_v46 (broadcastInDim S1x32 ![1] bcast_S32_S1x32_1 : (⟨S32, .f32⟩ : BufTy).Contents (Elt F) → (⟨S1x32, .f32⟩ : BufTy).Contents (Elt F)),
    unary main_v46 main_v47 (broadcastInDim S100000x32 ![0, 1] bcast_S1x32_S100000x32_0_1 : (⟨S1x32, .f32⟩ : BufTy).Contents (Elt F) → (⟨S100000x32, .f32⟩ : BufTy).Contents (Elt F)),
    binary main_v45 main_v47 main_v48 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v48) (TRef.of (T := ⟨S100000x32, .f32⟩) main_call1_v0) (TRef.of (T := ⟨S100000x32, .f32⟩) main_v49) maximumf,
    binary main_v49 main_arg4 main_v50 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)) ]

/-- The fifth stretch: the self loops appended to the two rows a second time (%51 … %53). -/
def segD1 : List (HloOp τ sig (Elt F)) :=
  [ nullary main_v51 (iotaInDim S100000 32 0),
    binary main_v1 main_v51 main_v52 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)),
    binary main_v3 main_v51 main_v53 ((fun a b => concatenate S1100000 0 [⟨S1000000, a⟩, ⟨S100000, b⟩] concatenates_S1000000_S100000_S1100000_d0) : (⟨S1000000, .i32⟩ : BufTy).Contents (Elt F) → (⟨S100000, .i32⟩ : BufTy).Contents (Elt F) → (⟨S1100000, .i32⟩ : BufTy).Contents (Elt F)) ]

/-- The sixth stretch: degrees, weights and the edge coefficients a second time, from the second pair of endpoint vectors (%cst_10 … %78). -/
def segD2 : List (HloOp τ sig (Elt F)) :=
  [ nullary main_cst_10 (constant S_ .f32 0x3F800000#32),
    unary main_cst_10 main_v54 (broadcastInDim S1100000 ![] bcast_S_S1100000 : (⟨S_, .f32⟩ : BufTy).Contents (Elt F) → (⟨S1100000, .f32⟩ : BufTy).Contents (Elt F)),
    nullary main_cst_11 (constant S_ .f32 0x00000000#32),
    unary main_cst_11 main_v55 (broadcastInDim S100000 ![] bcast_S_S100000 : (⟨S_, .f32⟩ : BufTy).Contents (Elt F) → (⟨S100000, .f32⟩ : BufTy).Contents (Elt F)),
    unary main_v53 main_v56 (broadcastInDim S1100000x1 ![0] bcast_S1100000_S1100000x1_0 : (⟨S1100000, .i32⟩ : BufTy).Contents (Elt F) → (⟨S1100000x1, .i32⟩ : BufTy).Contents (Elt F)),
    ternary main_v55 main_v56 main_v54 main_v57 ((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)),
    nullary main_cst_12 (constant S_ .f32 0x00000000#32),
    unary main_cst_12 main_v58 (broadcastInDim S100000 ![] bcast_S_S100000 : (⟨S_, .f32⟩ : BufTy).Contents (Elt F) → (⟨S100000, .f32⟩ : BufTy).Contents (Elt F)),
    binary main_v57 main_v58 main_v59 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0x2B8CBCCC#32),
    unary main_cst_13 main_v60 (broadcastInDim S100000 ![] bcast_S_S100000 : (⟨S_, .f32⟩ : BufTy).Contents (Elt F) → (⟨S100000, .f32⟩ : BufTy).Contents (Elt F)),
    binary main_v57 main_v60 main_v61 (maximumf : (⟨S100000, .f32⟩ : BufTy).Contents (Elt F) → (⟨S100000, .f32⟩ : BufTy).Contents (Elt F) → (⟨S100000, .f32⟩ : BufTy).Contents (Elt F)),
    unary main_v61 main_v62 (Host.rsqrt : (⟨S100000, .f32⟩ : BufTy).Contents (Elt F) → (⟨S100000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v59) (TRef.of (T := ⟨S100000, .f32⟩) main_v62) (TRef.of (T := ⟨S100000, .f32⟩) main_call2_v1) (TRef.of (T := ⟨S100000, .f32⟩) main_v63) select,
    nullary main_c_15 (constantI S_ 32 0#32),
    unary main_c_15 main_v64 (broadcastInDim S1100000 ![] bcast_S_S1100000 : (⟨S_, .i32⟩ : BufTy).Contents (Elt F) → (⟨S1100000, .i32⟩ : BufTy).Contents (Elt F)),
    binary main_v52 main_v64 main_v65 (cmpi .slt : (⟨S1100000, .i32⟩ : BufTy).Contents (Elt F) → (⟨S1100000, .i32⟩ : BufTy).Contents (Elt F) → (⟨S1100000, .i1⟩ : BufTy).Contents (Elt F)),
    nullary main_c_16 (constantI S_ 32 100000#32),
    unary main_c_16 main_v66 (broadcastInDim S1100000 ![] bcast_S_S1100000 : (⟨S_, .i32⟩ : BufTy).Contents (Elt F) → (⟨S1100000, .i32⟩ : BufTy).Contents (Elt F)),
    binary main_v52 main_v66 main_v67 (addi : (⟨S1100000, .i32⟩ : BufTy).Contents (Elt F) → (⟨S1100000, .i32⟩ : BufTy).Contents (Elt F) → (⟨S1100000, .i32⟩ : BufTy).Contents (Elt F)),
    ternary main_v65 main_v67 main_v52 main_v68 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v68 main_v69 (broadcastInDim S1100000x1 ![0] bcast_S1100000_S1100000x1_0 : (⟨S1100000, .i32⟩ : BufTy).Contents (Elt F) → (⟨S1100000x1, .i32⟩ : BufTy).Contents (Elt F)),
    binary main_v63 main_v69 main_v70 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    nullary main_c_17 (constantI S_ 32 0#32),
    unary main_c_17 main_v71 (broadcastInDim S1100000 ![] bcast_S_S1100000 : (⟨S_, .i32⟩ : BufTy).Contents (Elt F) → (⟨S1100000, .i32⟩ : BufTy).Contents (Elt F)),
    binary main_v53 main_v71 main_v72 (cmpi .slt : (⟨S1100000, .i32⟩ : BufTy).Contents (Elt F) → (⟨S1100000, .i32⟩ : BufTy).Contents (Elt F) → (⟨S1100000, .i1⟩ : BufTy).Contents (Elt F)),
    nullary main_c_18 (constantI S_ 32 100000#32),
    unary main_c_18 main_v73 (broadcastInDim S1100000 ![] bcast_S_S1100000 : (⟨S_, .i32⟩ : BufTy).Contents (Elt F) → (⟨S1100000, .i32⟩ : BufTy).Contents (Elt F)),
    binary main_v53 main_v73 main_v74 (addi : (⟨S1100000, .i32⟩ : BufTy).Contents (Elt F) → (⟨S1100000, .i32⟩ : BufTy).Contents (Elt F) → (⟨S1100000, .i32⟩ : BufTy).Contents (Elt F)),
    ternary main_v72 main_v74 main_v53 main_v75 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v75 main_v76 (broadcastInDim S1100000x1 ![0] bcast_S1100000_S1100000x1_0 : (⟨S1100000, .i32⟩ : BufTy).Contents (Elt F) → (⟨S1100000x1, .i32⟩ : BufTy).Contents (Elt F)),
    binary main_v63 main_v76 main_v77 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    binary main_v70 main_v77 main_v78 (mulf : (⟨S1100000, .f32⟩ : BufTy).Contents (Elt F) → (⟨S1100000, .f32⟩ : BufTy).Contents (Elt F) → (⟨S1100000, .f32⟩ : BufTy).Contents (Elt F)) ]

/-- The seventh stretch: one propagation step over the 64 features of layer 2's output (%c_19 … %91). -/
def segE : List (HloOp τ sig (Elt F)) :=
  [ nullary main_c_19 (constantI S_ 32 0#32),
    unary main_c_19 main_v79 (broadcastInDim S1100000 ![] bcast_S_S1100000 : (⟨S_, .i32⟩ : BufTy).Contents (Elt F) → (⟨S1100000, .i32⟩ : BufTy).Contents (Elt F)),
    binary main_v52 main_v79 main_v80 (cmpi .slt : (⟨S1100000, .i32⟩ : BufTy).Contents (Elt F) → (⟨S1100000, .i32⟩ : BufTy).Contents (Elt F) → (⟨S1100000, .i1⟩ : BufTy).Contents (Elt F)),
    nullary main_c_20 (constantI S_ 32 100000#32),
    unary main_c_20 main_v81 (broadcastInDim S1100000 ![] bcast_S_S1100000 : (⟨S_, .i32⟩ : BufTy).Contents (Elt F) → (⟨S1100000, .i32⟩ : BufTy).Contents (Elt F)),
    binary main_v52 main_v81 main_v82 (addi : (⟨S1100000, .i32⟩ : BufTy).Contents (Elt F) → (⟨S1100000, .i32⟩ : BufTy).Contents (Elt F) → (⟨S1100000, .i32⟩ : BufTy).Contents (Elt F)),
    ternary main_v80 main_v82 main_v52 main_v83 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    unary main_v83 main_v84 (broadcastInDim S1100000x1 ![0] bcast_S1100000_S1100000x1_0 : (⟨S1100000, .i32⟩ : BufTy).Contents (Elt F) → (⟨S1100000x1, .i32⟩ : BufTy).Contents (Elt F)),
    binary main_v50 main_v84 main_v85 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    unary main_v78 main_v86 (broadcastInDim S1100000x1 ![0] bcast_S1100000_S1100000x1_0 : (⟨S1100000, .f32⟩ : BufTy).Contents (Elt F) → (⟨S1100000x1, .f32⟩ : BufTy).Contents (Elt F)),
    unary main_v86 main_v87 (broadcastInDim S1100000x64 ![0, 1] bcast_S1100000x1_S1100000x64_0_1 : (⟨S1100000x1, .f32⟩ : BufTy).Contents (Elt F) → (⟨S1100000x64, .f32⟩ : BufTy).Contents (Elt F)),
    binary main_v85 main_v87 main_v88 (mulf : (⟨S1100000x64, .f32⟩ : BufTy).Contents (Elt F) → (⟨S1100000x64, .f32⟩ : BufTy).Contents (Elt F) → (⟨S1100000x64, .f32⟩ : BufTy).Contents (Elt F)),
    nullary main_cst_21 (constant S_ .f32 0x00000000#32),
    unary main_cst_21 main_v89 (broadcastInDim S100000x64 ![] bcast_S_S100000x64 : (⟨S_, .f32⟩ : BufTy).Contents (Elt F) → (⟨S100000x64, .f32⟩ : BufTy).Contents (Elt F)),
    unary main_v53 main_v90 (broadcastInDim S1100000x1 ![0] bcast_S1100000_S1100000x1_0 : (⟨S1100000, .i32⟩ : BufTy).Contents (Elt F) → (⟨S1100000x1, .i32⟩ : BufTy).Contents (Elt F)),
    ternary main_v89 main_v90 main_v88 main_v91 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)) ]

/-- The last stretch: layer 3 (%92 … %99). -/
def segG : List (HloOp τ sig (Elt F)) :=
  [ unary main_arg5 main_v92 (broadcastInDim S1x64 ![1] bcast_S64_S1x64_1 : (⟨S64, .f32⟩ : BufTy).Contents (Elt F) → (⟨S1x64, .f32⟩ : BufTy).Contents (Elt F)),
    unary main_v92 main_v93 (broadcastInDim S100000x64 ![0, 1] bcast_S1x64_S100000x64_0_1 : (⟨S1x64, .f32⟩ : BufTy).Contents (Elt F) → (⟨S100000x64, .f32⟩ : BufTy).Contents (Elt F)),
    binary main_v91 main_v93 main_v94 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v94) (TRef.of (T := ⟨S100000x64, .f32⟩) main_call3_v0) (TRef.of (T := ⟨S100000x64, .f32⟩) main_v95) maximumf,
    binary main_v95 main_arg6 main_v96 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg7 main_v97 (broadcastInDim S1x1 ![1] bcast_S1_S1x1_1 : (⟨S1, .f32⟩ : BufTy).Contents (Elt F) → (⟨S1x1, .f32⟩ : BufTy).Contents (Elt F)),
    unary main_v97 main_v98 (broadcastInDim S100000x1 ![0, 1] bcast_S1x1_S100000x1_0_1 : (⟨S1x1, .f32⟩ : BufTy).Contents (Elt F) → (⟨S100000x1, .f32⟩ : BufTy).Contents (Elt F)),
    binary main_v96 main_v98 main_v99 (addf : (⟨S100000x1, .f32⟩ : BufTy).Contents (Elt F) → (⟨S100000x1, .f32⟩ : BufTy).Contents (Elt F) → (⟨S100000x1, .f32⟩ : BufTy).Contents (Elt F)) ]

variable (X : Valuation τ sig (Elt F))

/-! ## The first stretch -/

/-- After the first stretch: row 0 of the edge list. -/
theorem A1_v1 : after (segA1 (F := F)) X (Proc.devRef .tc main_v1) = row0 (X (Proc.devRef .tc main_arg1)) := by
  unfold segA1; after_results; rfl
/-- Row 1 of the edge list. -/
theorem A1_v3 : after (segA1 (F := F)) X (Proc.devRef .tc main_v3) = row1 (X (Proc.devRef .tc main_arg1)) := by
  unfold segA1; after_results; rfl
/-- Layer 1's product. -/
theorem A1_v4 : after (segA1 (F := F)) X (Proc.devRef .tc main_v4) = dense1 (X (Proc.devRef .tc main_arg0)) (X (Proc.devRef .tc main_arg2)) := by
  unfold segA1; after_results; rfl
/-- The sources of all E + N edges. -/
theorem A1_v6 : after (segA1 (F := F)) X (Proc.devRef .tc main_v6) = Cert.GcnK.endpoints0 (X (Proc.devRef .tc main_arg1)) := by
  unfold segA1; after_results; rfl
/-- The targets of all E + N edges. -/
theorem A1_v7 : after (segA1 (F := F)) X (Proc.devRef .tc main_v7) = Cert.GcnK.endpoints1 (X (Proc.devRef .tc main_arg1)) := by
  unfold segA1; after_results; rfl
/-- The first stretch writes none of the later layers' arguments. -/
theorem A1_arg3 : after (segA1 (F := F)) X (Proc.devRef .tc main_arg3) = X (Proc.devRef .tc main_arg3) := by
  unfold segA1; after_results
theorem A1_arg4 : after (segA1 (F := F)) X (Proc.devRef .tc main_arg4) = X (Proc.devRef .tc main_arg4) := by
  unfold segA1; after_results
theorem A1_arg5 : after (segA1 (F := F)) X (Proc.devRef .tc main_arg5) = X (Proc.devRef .tc main_arg5) := by
  unfold segA1; after_results
theorem A1_arg6 : after (segA1 (F := F)) X (Proc.devRef .tc main_arg6) = X (Proc.devRef .tc main_arg6) := by
  unfold segA1; after_results
theorem A1_arg7 : after (segA1 (F := F)) X (Proc.devRef .tc main_arg7) = X (Proc.devRef .tc main_arg7) := by
  unfold segA1; after_results

/-! ## The second stretch -/

/-- After the second stretch: the edge coefficients of the endpoint vectors it started from. -/
theorem A2_v32 : after (segA2 (F := F)) X (Proc.devRef .tc main_v32) = Cert.GcnK.coeff (Cert.GcnK.weight (Cert.GcnK.degree (X (Proc.devRef .tc main_v7)))) (X (Proc.devRef .tc main_v6)) (X (Proc.devRef .tc main_v7)) := by
  unfold segA2; after_results_simp <;> rfl
/-- The second stretch keeps what the first one left and the later layers' arguments. -/
theorem A2_v1 : after (segA2 (F := F)) X (Proc.devRef .tc main_v1) = X (Proc.devRef .tc main_v1) := by
  unfold segA2; after_results
theorem A2_v3 : after (segA2 (F := F)) X (Proc.devRef .tc main_v3) = X (Proc.devRef .tc main_v3) := by
  unfold segA2; after_results
theorem A2_v4 : after (segA2 (F := F)) X (Proc.devRef .tc main_v4) = X (Proc.devRef .tc main_v4) := by
  unfold segA2; after_results
theorem A2_v6 : after (segA2 (F := F)) X (Proc.devRef .tc main_v6) = X (Proc.devRef .tc main_v6) := by
  unfold segA2; after_results
theorem A2_v7 : after (segA2 (F := F)) X (Proc.devRef .tc main_v7) = X (Proc.devRef .tc main_v7) := by
  unfold segA2; after_results
theorem A2_arg3 : after (segA2 (F := F)) X (Proc.devRef .tc main_arg3) = X (Proc.devRef .tc main_arg3) := by
  unfold segA2; after_results
theorem A2_arg4 : after (segA2 (F := F)) X (Proc.devRef .tc main_arg4) = X (Proc.devRef .tc main_arg4) := by
  unfold segA2; after_results
theorem A2_arg5 : after (segA2 (F := F)) X (Proc.devRef .tc main_arg5) = X (Proc.devRef .tc main_arg5) := by
  unfold segA2; after_results
theorem A2_arg6 : after (segA2 (F := F)) X (Proc.devRef .tc main_arg6) = X (Proc.devRef .tc main_arg6) := by
  unfold segA2; after_results
theorem A2_arg7 : after (segA2 (F := F)) X (Proc.devRef .tc main_arg7) = X (Proc.devRef .tc main_arg7) := by
  unfold segA2; after_results

/-! ## The third stretch -/

/-- After the third stretch: one propagation step over 32 features. -/
theorem B_v45 : after (segB (F := F)) X (Proc.devRef .tc main_v45) = Cert.GcnK.spread32 (X (Proc.devRef .tc main_v6)) (X (Proc.devRef .tc main_v7)) (X (Proc.devRef .tc main_v32)) (X (Proc.devRef .tc main_v4)) := by
  unfold segB; after_results_simp <;> rfl
/-- The third stretch keeps the two rows and the later layers' arguments. -/
theorem B_v1 : after (segB (F := F)) X (Proc.devRef .tc main_v1) = X (Proc.devRef .tc main_v1) := by
  unfold segB; after_results
theorem B_v3 : after (segB (F := F)) X (Proc.devRef .tc main_v3) = X (Proc.devRef .tc main_v3) := by
  unfold segB; after_results
theorem B_arg3 : after (segB (F := F)) X (Proc.devRef .tc main_arg3) = X (Proc.devRef .tc main_arg3) := by
  unfold segB; after_results
theorem B_arg4 : after (segB (F := F)) X (Proc.devRef .tc main_arg4) = X (Proc.devRef .tc main_arg4) := by
  unfold segB; after_results
theorem B_arg5 : after (segB (F := F)) X (Proc.devRef .tc main_arg5) = X (Proc.devRef .tc main_arg5) := by
  unfold segB; after_results
theorem B_arg6 : after (segB (F := F)) X (Proc.devRef .tc main_arg6) = X (Proc.devRef .tc main_arg6) := by
  unfold segB; after_results
theorem B_arg7 : after (segB (F := F)) X (Proc.devRef .tc main_arg7) = X (Proc.devRef .tc main_arg7) := by
  unfold segB; after_results

/-! ## The fourth stretch -/

/-- After the fourth stretch: layer 2. -/
theorem C_v50 : after (segC (F := F)) X (Proc.devRef .tc main_v50) = dense2 (X (Proc.devRef .tc main_v45)) (X (Proc.devRef .tc main_arg3)) (X (Proc.devRef .tc main_arg4)) := by
  unfold segC; after_results; rfl
/-- The fourth stretch keeps the two rows and layer 3's arguments. -/
theorem C_v1 : after (segC (F := F)) X (Proc.devRef .tc main_v1) = X (Proc.devRef .tc main_v1) := by
  unfold segC; after_results
theorem C_v3 : after (segC (F := F)) X (Proc.devRef .tc main_v3) = X (Proc.devRef .tc main_v3) := by
  unfold segC; after_results
theorem C_arg5 : after (segC (F := F)) X (Proc.devRef .tc main_arg5) = X (Proc.devRef .tc main_arg5) := by
  unfold segC; after_results
theorem C_arg6 : after (segC (F := F)) X (Proc.devRef .tc main_arg6) = X (Proc.devRef .tc main_arg6) := by
  unfold segC; after_results
theorem C_arg7 : after (segC (F := F)) X (Proc.devRef .tc main_arg7) = X (Proc.devRef .tc main_arg7) := by
  unfold segC; after_results

/-! ## The fifth stretch -/

/-- After the fifth stretch: row 0 with the self loops, again. -/
theorem D1_v52 : after (segD1 (F := F)) X (Proc.devRef .tc main_v52) = withLoops (X (Proc.devRef .tc main_v1)) := by
  unfold segD1; after_results; rfl
/-- Row 1 with the self loops, again. -/
theorem D1_v53 : after (segD1 (F := F)) X (Proc.devRef .tc main_v53) = withLoops (X (Proc.devRef .tc main_v3)) := by
  unfold segD1; after_results; rfl
/-- The fifth stretch keeps layer 2's output and layer 3's arguments. -/
theorem D1_v50 : after (segD1 (F := F)) X (Proc.devRef .tc main_v50) = X (Proc.devRef .tc main_v50) := by
  unfold segD1; after_results
theorem D1_arg5 : after (segD1 (F := F)) X (Proc.devRef .tc main_arg5) = X (Proc.devRef .tc main_arg5) := by
  unfold segD1; after_results
theorem D1_arg6 : after (segD1 (F := F)) X (Proc.devRef .tc main_arg6) = X (Proc.devRef .tc main_arg6) := by
  unfold segD1; after_results
theorem D1_arg7 : after (segD1 (F := F)) X (Proc.devRef .tc main_arg7) = X (Proc.devRef .tc main_arg7) := by
  unfold segD1; after_results

/-! ## The sixth stretch -/

/-- After the sixth stretch: the edge coefficients of the second pair of endpoint vectors. -/
theorem D2_v78 : after (segD2 (F := F)) X (Proc.devRef .tc main_v78) = Cert.GcnK.coeff (Cert.GcnK.weight (Cert.GcnK.degree (X (Proc.devRef .tc main_v53)))) (X (Proc.devRef .tc main_v52)) (X (Proc.devRef .tc main_v53)) := by
  unfold segD2; after_results_simp <;> rfl
/-- The sixth stretch keeps layer 2's output, the second pair of endpoint vectors and layer 3's arguments. -/
theorem D2_v50 : after (segD2 (F := F)) X (Proc.devRef .tc main_v50) = X (Proc.devRef .tc main_v50) := by
  unfold segD2; after_results
theorem D2_v52 : after (segD2 (F := F)) X (Proc.devRef .tc main_v52) = X (Proc.devRef .tc main_v52) := by
  unfold segD2; after_results
theorem D2_v53 : after (segD2 (F := F)) X (Proc.devRef .tc main_v53) = X (Proc.devRef .tc main_v53) := by
  unfold segD2; after_results
theorem D2_arg5 : after (segD2 (F := F)) X (Proc.devRef .tc main_arg5) = X (Proc.devRef .tc main_arg5) := by
  unfold segD2; after_results
theorem D2_arg6 : after (segD2 (F := F)) X (Proc.devRef .tc main_arg6) = X (Proc.devRef .tc main_arg6) := by
  unfold segD2; after_results
theorem D2_arg7 : after (segD2 (F := F)) X (Proc.devRef .tc main_arg7) = X (Proc.devRef .tc main_arg7) := by
  unfold segD2; after_results

/-! ## The seventh stretch -/

/-- After the seventh stretch: one propagation step over 64 features. -/
theorem E_v91 : after (segE (F := F)) X (Proc.devRef .tc main_v91) = Cert.GcnK.spread64 (X (Proc.devRef .tc main_v52)) (X (Proc.devRef .tc main_v53)) (X (Proc.devRef .tc main_v78)) (X (Proc.devRef .tc main_v50)) := by
  unfold segE; after_results_simp <;> rfl
/-- The seventh stretch keeps layer 3's arguments. -/
theorem E_arg5 : after (segE (F := F)) X (Proc.devRef .tc main_arg5) = X (Proc.devRef .tc main_arg5) := by
  unfold segE; after_results
theorem E_arg6 : after (segE (F := F)) X (Proc.devRef .tc main_arg6) = X (Proc.devRef .tc main_arg6) := by
  unfold segE; after_results
theorem E_arg7 : after (segE (F := F)) X (Proc.devRef .tc main_arg7) = X (Proc.devRef .tc main_arg7) := by
  unfold segE; after_results

/-! ## The last stretch -/

/-- After the last stretch: layer 3, the result. -/
theorem G_v99 : after (segG (F := F)) X (Proc.devRef .tc main_v99) = dense3 (X (Proc.devRef .tc main_v91)) (X (Proc.devRef .tc main_arg5)) (X (Proc.devRef .tc main_arg6)) (X (Proc.devRef .tc main_arg7)) := by
  unfold segG; after_results; rfl

end Cert.GcnR

end
-- ==== Proof.LibHostDot.lean ====
/-
  A plain matrix product on the host, read at an index, on the extended reals.

  For dimension numbers that contract the left operand's second axis against the right operand's first — an [M, K] array
  times a [K, P] array — the host's product read at row `p` and column `q` is `Σ k, l (p, k) · r (k, q)` over the K
  contraction coordinates: the sum over the contraction's index set, which has one axis, re-indexed through that axis's
  coordinate. The two facts about the free axes are taken as hypotheses, since for given dimension numbers they hold by
  computation.
-/
import Idealize.ShloMosaic.PureOps.Ideal.Laws
import Idealize.ShloMosaic.Lib.ValueIdx

noncomputable section

open scoped BigOperators

namespace Cert.LibHostDot

open Idealize.ShloMosaic Idealize.ShloMosaic.ValueIdx

/-- The host's matrix product at (p, q) is the sum over the contraction coordinate of the left operand at (p, k) times the
    right operand at (k, q). -/
theorem dotGeneral_plain_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    Host.dotGeneral D prec l r (ix2 p q) = ∑ k : Fin K, l (ix2 p k) * r (ix2 k q) := by
  simp only [Host.dotGeneral]
  rw [Ideal.dotGeneral_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibHostDot

end
-- ==== Proof.LibBiasRow.lean ====
/-
  A bias vector used against every row of a table, and a scalar filling a table.

  A length-b vector added to every row of an [a, b] table is first made a [1, b] row and then repeated along the rows.
  Whether the row is made by a reshape and repeated by a trailing-axes broadcast, or made by placing the vector's axis
  on the table's second axis and repeated by an axis-by-axis broadcast, the repeated table holds at (p, k) the vector's
  entry k. A scalar broadcast to a table holds the scalar everywhere.
-/
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

variable {α : Type}

/-- The vector placed on the second axis of a [1, b] row, the row then broadcast axis by axis to [a, b]: at (p, k) the
    vector at k. -/
theorem placed_row_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (k : Fin b) :
    broadcastInDim ⟨2, ![a, b]⟩ ![0, 1] h2 (broadcastInDim ⟨2, ![1, b]⟩ ![1] h1 x) (ix2 p k) = x (ix1 k) := by
  refine (broadcastInDim_apply ![0, 1] h2 _ (ix2 p k) (ix2 (0 : Fin 1) k) fun ax => ?_).trans ?_
  · match ax with
    | ⟨0, _⟩ => rfl
    | ⟨1, _⟩ =>
      show k.val = if b = 1 then 0 else k.val
      split
      · have := k.isLt; omega
      · rfl
  · refine broadcastInDim_apply ![1] h1 x (ix2 (0 : Fin 1) k) (ix1 k) fun ax => ?_
    match ax with
    | ⟨0, _⟩ =>
      show k.val = if b = 1 then 0 else k.val
      split
      · have := k.isLt; omega
      · rfl

/-- The vector reshaped to a [1, b] row, the row then broadcast over the leading axis to [a, b]: at (p, k) the vector
    at k. -/
theorem reshaped_row_apply {a b : ℕ} (x : (⟨1, ![b]⟩ : Shape).Idx → α)
    (h1 : (⟨1, ![b]⟩ : Shape).ShapeCasts ⟨2, ![1, b]⟩)
    (h2 : (⟨2, ![1, b]⟩ : Shape).Broadcasts ⟨2, ![a, b]⟩) (p : Fin a) (k : Fin b) :
    broadcastTo ⟨2, ![a, b]⟩ (shapeCast ⟨2, ![1, b]⟩ x h1) h2 (ix2 p k) = x (ix1 k) := by
  refine (broadcastTo_apply _ h2 (ix2 p k) (ix2 (0 : Fin 1) k) fun ax => ?_).trans (shapeCast_a_1a_apply x h1 0 k)
  match ax with
  | ⟨0, _⟩ => rfl
  | ⟨1, _⟩ =>
    show k.val = if b = 1 then 0 else k.val
    split
    · have := k.isLt; omega
    · rfl

/-- A scalar broadcast to any shape holds the scalar at every index. -/
theorem fill_apply {t : Shape} (z : (⟨0, ![]⟩ : Shape).Idx → α) (h : (⟨0, ![]⟩ : Shape).BroadcastsInDim t ![]) (j : t.Idx) :
    broadcastInDim t ![] h z j = z ix0 :=
  broadcastInDim_apply ![] h z j ix0 fun ax => ax.elim0

end Cert.LibBiasRow

end
-- ==== Proof.RefLayers.lean ====
/-
  The reference's three dense layers are the network's, entry by entry, on the extended reals.

  Each layer is a matrix product contracting the left operand's second axis against the right operand's first, so its
  entry (p, q) is the sum over the contraction coordinate of left (p, k) times right (k, q). In layer 1 the contraction
  has one coordinate and the sum is one product. In layers 2 and 3 the left operand at (p, k) is the maximum with zero of
  the input at (p, k) plus the bias at k: the bias vector placed on the second axis and repeated down the rows reads the
  bias at k, and the zero table reads zero everywhere. Layer 3 adds the final bias, read the same way. These are the sums
  `Layers` names; no property of the entries is used.
-/
import proofs.«173035_j7576322310702_2_alg».proof.Proof.RefTerms
import proofs.«173035_j7576322310702_2_alg».proof.Proof.Layers
import proofs.«173035_j7576322310702_2_alg».proof.Proof.LibHostDot
import proofs.«173035_j7576322310702_2_alg».proof.Proof.LibBiasRow

noncomputable section

open scoped BigOperators

namespace Cert.GcnR

open Idealize.ShloMosaic Idealize.ShloMosaic.ValueIdx Cert.ReferenceIdeal Cert.ReferenceIdeal.Gen

/-! ## The free axes of the three products -/

/-- The first free axis of layer 1's product reads the result's row. -/
theorem d1_l0 (j : S100000x32.Idx) (c : dot_S100000x1_S1x32_S100000x32_1_0_0_1_n_n.contr.Idx) :
    (dot_S100000x1_S1x32_S100000x32_1_0_0_1_n_n.lhsIdx j c 0).val = (j 0).val := by
  unfold DotDims.lhsIdx
  rw [dif_neg (show ¬(0 : Fin S100000x1.rank) ∈ dot_S100000x1_S1x32_S100000x32_1_0_0_1_n_n.lhsBatch by decide),
    dif_pos (show (0 : Fin S100000x1.rank) ∈ dot_S100000x1_S1x32_S100000x32_1_0_0_1_n_n.lhsNonContracting by decide)]
  rfl

/-- The second free axis of layer 1's product reads the result's column. -/
theorem d1_r1 (j : S100000x32.Idx) (c : dot_S100000x1_S1x32_S100000x32_1_0_0_1_n_n.contr.Idx) :
    (dot_S100000x1_S1x32_S100000x32_1_0_0_1_n_n.rhsIdx j c 1).val = (j 1).val := by
  unfold DotDims.rhsIdx
  rw [dif_neg (show ¬(1 : Fin S1x32.rank) ∈ dot_S100000x1_S1x32_S100000x32_1_0_0_1_n_n.rhsBatch by decide),
    dif_pos (show (1 : Fin S1x32.rank) ∈ dot_S100000x1_S1x32_S100000x32_1_0_0_1_n_n.rhsNonContracting by decide)]
  rfl

/-- The first free axis of layer 2's product reads the result's row. -/
theorem d2_l0 (j : S100000x64.Idx) (c : dot_S100000x32_S32x64_S100000x64_1_0_0_1_n_n.contr.Idx) :
    (dot_S100000x32_S32x64_S100000x64_1_0_0_1_n_n.lhsIdx j c 0).val = (j 0).val := by
  unfold DotDims.lhsIdx
  rw [dif_neg (show ¬(0 : Fin S100000x32.rank) ∈ dot_S100000x32_S32x64_S100000x64_1_0_0_1_n_n.lhsBatch by decide),
    dif_pos (show (0 : Fin S100000x32.rank) ∈ dot_S100000x32_S32x64_S100000x64_1_0_0_1_n_n.lhsNonContracting by decide)]
  rfl

/-- The second free axis of layer 2's product reads the result's column. -/
theorem d2_r1 (j : S100000x64.Idx) (c : dot_S100000x32_S32x64_S100000x64_1_0_0_1_n_n.contr.Idx) :
    (dot_S100000x32_S32x64_S100000x64_1_0_0_1_n_n.rhsIdx j c 1).val = (j 1).val := by
  unfold DotDims.rhsIdx
  rw [dif_neg (show ¬(1 : Fin S32x64.rank) ∈ dot_S100000x32_S32x64_S100000x64_1_0_0_1_n_n.rhsBatch by decide),
    dif_pos (show (1 : Fin S32x64.rank) ∈ dot_S100000x32_S32x64_S100000x64_1_0_0_1_n_n.rhsNonContracting by decide)]
  rfl

/-- The first free axis of layer 3's product reads the result's row. -/
theorem d3_l0 (j : S100000x1.Idx) (c : dot_S100000x64_S64x1_S100000x1_1_0_0_1_n_n.contr.Idx) :
    (dot_S100000x64_S64x1_S100000x1_1_0_0_1_n_n.lhsIdx j c 0).val = (j 0).val := by
  unfold DotDims.lhsIdx
  rw [dif_neg (show ¬(0 : Fin S100000x64.rank) ∈ dot_S100000x64_S64x1_S100000x1_1_0_0_1_n_n.lhsBatch by decide),
    dif_pos (show (0 : Fin S100000x64.rank) ∈ dot_S100000x64_S64x1_S100000x1_1_0_0_1_n_n.lhsNonContracting by decide)]
  rfl

/-- The second free axis of layer 3's product reads the result's column. -/
theorem d3_r1 (j : S100000x1.Idx) (c : dot_S100000x64_S64x1_S100000x1_1_0_0_1_n_n.contr.Idx) :
    (dot_S100000x64_S64x1_S100000x1_1_0_0_1_n_n.rhsIdx j c 1).val = (j 1).val := by
  unfold DotDims.rhsIdx
  rw [dif_neg (show ¬(1 : Fin S64x1.rank) ∈ dot_S100000x64_S64x1_S100000x1_1_0_0_1_n_n.rhsBatch by decide),
    dif_pos (show (1 : Fin S64x1.rank) ∈ dot_S100000x64_S64x1_S100000x1_1_0_0_1_n_n.rhsNonContracting by decide)]
  rfl

/-! ## The layers -/

/-- Layer 1: entry (p, q) is x(p) · W1(q), the one term of the contraction's sum. -/
theorem dense1_eq (x : (⟨S100000x1, .f32⟩ : BufTy).Contents (Elt Ideal)) (w : (⟨S1x32, .f32⟩ : BufTy).Contents (Elt Ideal)) :
    dense1 (F := Ideal) x w = Cert.Gcn.lin1 x w := by
  funext j
  obtain ⟨p, q, rfl⟩ : ∃ (p : Fin 100000) (q : Fin 32), j = ix2 p q := ⟨j 0, j 1, eq_ix2 j⟩
  rw [Cert.Gcn.lin1_apply]
  unfold dense1
  rw [Cert.LibHostDot.dotGeneral_plain_apply dot_S100000x1_S1x32_S100000x32_1_0_0_1_n_n rfl rfl d1_l0 d1_r1 rfl rfl none x w p q,
    Fin.sum_univ_one]

/-- Layer 2: entry (p, q) is Σ_k max(a(p, k) + b(k), 0) · W(k, q). -/
theorem dense2_eq (a : (⟨S100000x32, .f32⟩ : BufTy).Contents (Elt Ideal)) (b : (⟨S32, .f32⟩ : BufTy).Contents (Elt Ideal))
    (w : (⟨S32x64, .f32⟩ : BufTy).Contents (Elt Ideal)) : dense2 (F := Ideal) a b w = Cert.Gcn.lin2 a b w := by
  funext j
  obtain ⟨p, q, rfl⟩ : ∃ (p : Fin 100000) (q : Fin 64), j = ix2 p q := ⟨j 0, j 1, eq_ix2 j⟩
  rw [Cert.Gcn.lin2_apply]
  unfold dense2
  rw [Cert.LibHostDot.dotGeneral_plain_apply dot_S100000x32_S32x64_S100000x64_1_0_0_1_n_n rfl rfl d2_l0 d2_r1 rfl rfl none _ w p q]
  refine Finset.sum_congr rfl fun k _ => ?_
  rw [maximumf_apply, addf_apply, Cert.LibBiasRow.placed_row_apply, Cert.LibBiasRow.fill_apply, constant_apply]

/-- Layer 3: entry (p, u) is Σ_k max(a(p, k) + b(k), 0) · W(k, u), plus the final bias. -/
theorem dense3_eq (a : (⟨S100000x64, .f32⟩ : BufTy).Contents (Elt Ideal)) (b : (⟨S64, .f32⟩ : BufTy).Contents (Elt Ideal))
    (w : (⟨S64x1, .f32⟩ : BufTy).Contents (Elt Ideal)) (c : (⟨S1, .f32⟩ : BufTy).Contents (Elt Ideal)) :
    dense3 (F := Ideal) a b w c = Cert.Gcn.lin3 a b w c := by
  funext j
  obtain ⟨p, u, rfl⟩ : ∃ (p : Fin 100000) (u : Fin 1), j = ix2 p u := ⟨j 0, j 1, eq_ix2 j⟩
  rw [Cert.Gcn.lin3_apply]
  unfold dense3
  rw [addf_apply, Cert.LibHostDot.dotGeneral_plain_apply dot_S100000x64_S64x1_S100000x1_1_0_0_1_n_n rfl rfl d3_l0 d3_r1 rfl rfl none _ w p u,
    Cert.LibBiasRow.placed_row_apply]
  congr 1
  refine Finset.sum_congr rfl fun k _ => ?_
  rw [maximumf_apply, addf_apply, Cert.LibBiasRow.placed_row_apply, Cert.LibBiasRow.fill_apply, constant_apply]

end Cert.GcnR

end
-- ==== Proof.RefValue.lean ====
/-
  The reference's run ends at the network of its arguments.

  The reference is one straight line of 132 array operations, so every execution ends with each buffer at the fold of the
  operations over what the arguments held at the start. The line is eight consecutive stretches; reading them one after
  the other, the result buffer holds layer 3 of one propagation step over 64 features of layer 2 of one propagation step
  over 32 features of layer 1 of the input, where both steps use the same endpoint vectors and edge coefficients: the
  reference computes them twice from the same two rows of the edge list. On the extended reals its three layers are the
  sums `Layers` names, and the whole is `Spec`'s network of the eight arguments.
-/
import proofs.«173035_j7576322310702_2_alg».proof.Proof.RefRun
import proofs.«173035_j7576322310702_2_alg».proof.Proof.RefSegs
import proofs.«173035_j7576322310702_2_alg».proof.Proof.RefLayers
import proofs.«173035_j7576322310702_2_alg».proof.Proof.Spec

noncomputable section

namespace Cert.GcnR

open Cert.ReferenceIdeal Cert.ReferenceIdeal.Gen Idealize.ShloMosaic Idealize.ShloMosaic.TcCoe Idealize.SL.Sem Idealize.ShloMosaic.StableHlo

variable {F : FTy → Type} [FloatOps F]

/-- The 132 operations are the eight stretches, in order. -/
theorem ops_cut : (Cert.ReferenceIdeal.ValueP.ops (F := F))
    = segA1 ++ (segA2 ++ (segB ++ (segC ++ (segD1 ++ (segD2 ++ (segE ++ segG)))))) := rfl

/-- The whole line at the result buffer, for any float model: the reference's three layers around two propagation
    steps that share the endpoint vectors and the edge coefficients of the edge list. -/
theorem fold_v99 (X : Valuation τ sig (Elt F)) :
    after (Cert.ReferenceIdeal.ValueP.ops (F := F)) X (Proc.devRef .tc main_v99)
      = dense3 (Cert.GcnK.spread64 (Cert.GcnK.endpoints0 (X (Proc.devRef .tc main_arg1))) (Cert.GcnK.endpoints1 (X (Proc.devRef .tc main_arg1))) (Cert.GcnK.edgeCoeff (X (Proc.devRef .tc main_arg1)))
          (dense2 (Cert.GcnK.spread32 (Cert.GcnK.endpoints0 (X (Proc.devRef .tc main_arg1))) (Cert.GcnK.endpoints1 (X (Proc.devRef .tc main_arg1))) (Cert.GcnK.edgeCoeff (X (Proc.devRef .tc main_arg1)))
            (dense1 (X (Proc.devRef .tc main_arg0)) (X (Proc.devRef .tc main_arg2)))) (X (Proc.devRef .tc main_arg3)) (X (Proc.devRef .tc main_arg4))))
          (X (Proc.devRef .tc main_arg5)) (X (Proc.devRef .tc main_arg6)) (X (Proc.devRef .tc main_arg7)) := by
  rw [ops_cut, after_append, after_append, after_append, after_append, after_append, after_append, after_append]
  rw [G_v99, E_v91, E_arg5, E_arg6, E_arg7,
    D2_v78, D2_v52, D2_v53, D2_v50, D2_arg5, D2_arg6, D2_arg7,
    D1_v52, D1_v53, D1_v50, D1_arg5, D1_arg6, D1_arg7,
    C_v50, C_v1, C_v3, C_arg5, C_arg6, C_arg7,
    B_v45, B_v1, B_v3, B_arg3, B_arg4, B_arg5, B_arg6, B_arg7,
    A2_v32, A2_v1, A2_v3, A2_v4, A2_v6, A2_v7, A2_arg3, A2_arg4, A2_arg5, A2_arg6, A2_arg7,
    A1_v1, A1_v3, A1_v4, A1_v6, A1_v7, A1_arg3, A1_arg4, A1_arg5, A1_arg6, A1_arg7,
    withLoops_row0, withLoops_row1]
  rfl

/-- On the extended reals the whole line at the result buffer is the network of the arguments. -/
theorem fold_network (X : Valuation τ sig (Elt Ideal)) :
    after (Cert.ReferenceIdeal.ValueP.ops (F := Ideal)) X (Proc.devRef .tc main_v99)
      = Cert.GcnK.network (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) := by
  rw [fold_v99, dense1_eq, dense2_eq, dense3_eq]
  rfl

/-- From any memory with zero counters every weakly fair execution of the reference terminates with the result buffer
    at the network of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v99) = Cert.GcnK.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (fold_network (launchContents m c)), (h c).2⟩)
    (Cert.ReferenceIdeal.ValueP.run m ρ)

end Cert.GcnR

end
-- ==== Proof.lean ====
/-
  A two-layer graph convolution over 100000 nodes and 1000000 directed edges, as a device kernel and as array code.

  Both programs compute out = L3(P(L2(P(L1(x, W1)), b1, W2)), b2, Wf, bf). L1 is the outer product of the input column with
  the weight row; L2 and L3 add a bias to every row, take the maximum with zero and multiply by a weight table (L3 adds a
  final bias); P gathers every edge's source row, scales it by the edge's coefficient 1/sqrt(deg(source) · deg(target))
  (0 where a degree is 0) and adds it into the target's row, self loops included. The kernel program runs L1, L2, L3 on
  the device in row blocks and computes the edge coefficients once; the array code recomputes them per layer and writes
  the layers as matrix products. On the extended reals a matrix product into a zero accumulator is the plain sum over the
  contracted index, a one-term sum is its term, and rounding to a narrower float format is the identity, so both result
  arrays are the same function `Cert.GcnK.network` of the eight argument arrays; the graph part is literally the same term
  on both sides and is never opened. No property of the inputs is used: the precondition is not needed for the equality.
-/
import proofs.«173035_j7576322310702_2_alg».proof.Defs
import proofs.«173035_j7576322310702_2_alg».proof.Proof.Gen.Kernel
import proofs.«173035_j7576322310702_2_alg».proof.Proof.Gen.Kernel.Skeleton
import proofs.«173035_j7576322310702_2_alg».proof.Proof.Gen.Kernel.Launch
import proofs.«173035_j7576322310702_2_alg».proof.Proof.Gen.Kernel.Points
import proofs.«173035_j7576322310702_2_alg».proof.Proof.Gen.Kernel.Frame
import proofs.«173035_j7576322310702_2_alg».proof.Proof.Gen.KernelIdeal
import proofs.«173035_j7576322310702_2_alg».proof.Proof.Gen.KernelIdeal.Skeleton
import proofs.«173035_j7576322310702_2_alg».proof.Proof.Gen.KernelIdeal.Launch
import proofs.«173035_j7576322310702_2_alg».proof.Proof.Gen.KernelIdeal.Points
import proofs.«173035_j7576322310702_2_alg».proof.Proof.Gen.KernelIdeal.Frame
import proofs.«173035_j7576322310702_2_alg».proof.Proof.Gen.ReferenceIdeal
import proofs.«173035_j7576322310702_2_alg».proof.Proof.Gen.Pre_finite_inputs
import proofs.«173035_j7576322310702_2_alg».proof.Proof.KernelRun
import proofs.«173035_j7576322310702_2_alg».proof.Proof.KernelValue
import proofs.«173035_j7576322310702_2_alg».proof.Proof.RefValue
import Idealize.ShloMosaic.Adequacy
import Idealize.ShloMosaic.Init

noncomputable section

namespace Cert.Proof

open Idealize.ShloMosaic Idealize.SL.Sem

/-- The kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The array code runs and leaves its arguments unchanged: its run with the result dropped. -/
theorem frame_referenceIdeal : Cert.frame_ReferenceIdeal := fun m ρ _ =>
  (θ_run Cert.ReferenceIdeal.defs _ _).mono (fun _ h c => (h c).2) (Cert.GcnR.run m ρ)

/-- The idealization rewrote nothing. -/
theorem preserves : Cert.preserves_Kernel_KernelIdeal := trivial

/-- From memories agreeing on the arguments both programs end with the network of the arguments in their result arrays. -/
theorem algebraic : Cert.algebraic_KernelIdeal_ReferenceIdeal := by
  intro m ρ m' ρ' _ hagree
  refine ⟨fun c => Cert.GcnK.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.GcnK.result_eq m ρ c), (h c).2⟩) (Cert.GcnK.Run.run_last (F := Ideal) m ρ)
  · refine (θ_run Cert.ReferenceIdeal.defs _ _).mono (fun _ h c => ⟨(h c).1.trans ?_, (h c).2⟩) (Cert.GcnR.run m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
